-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x128x64 : Shape := ⟨3, ![20000, 128, 64]⟩
abbrev S2x320000 : Shape := ⟨2, ![2, 320000]⟩
abbrev S8192x256 : Shape := ⟨2, ![8192, 256]⟩
abbrev S256 : Shape := ⟨1, ![256]⟩
abbrev S256x256 : Shape := ⟨2, ![256, 256]⟩
abbrev S256x4 : Shape := ⟨2, ![256, 4]⟩
abbrev S4 : Shape := ⟨1, ![4]⟩
abbrev S_ : Shape := ⟨0, ![]⟩

class Facts : Prop where
  bcast_S_S20000x128x64 : S_.BroadcastsInDim S20000x128x64 (![] : Fin 0 → Fin S20000x128x64.rank)
  reducesTo_S20000x128x64_S_d0_1_2 : S20000x128x64.ReducesTo [0, 1, 2] S_
  h_S_ : 0 < S_.numel
  bcast_S_S8192x256 : S_.BroadcastsInDim S8192x256 (![] : Fin 0 → Fin S8192x256.rank)
  reducesTo_S8192x256_S_d0_1 : S8192x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x4 : S_.BroadcastsInDim S256x4 (![] : Fin 0 → Fin S256x4.rank)
  reducesTo_S256x4_S_d0_1 : S256x4.ReducesTo [0, 1] S_
  bcast_S_S4 : S_.BroadcastsInDim S4 (![] : Fin 0 → Fin S4.rank)
  reducesTo_S4_S_d0 : S4.ReducesTo [0] S_

variable [Facts]

def fn_part2 {F : FTy → Type} [FloatOps F] (main_arg8 : FVec F S4 .f32) (main_arg9 : FVec F S256x4 .f32) (main_v33 : IVec S_ 1) : IVec S_ 1 :=
  let main_v34 : FVec F S4 .f32 := Host.absf main_arg8
  let main_cst_12 : FVec F S_ .f32 := constant S_ .f32 0x7F800000#32
  let main_v35 : FVec F S4 .f32 := broadcastInDim S4 ![] bcast_S_S4 main_cst_12
  let main_v36 : IVec S4 1 := cmpf .olt main_v34 main_v35
  let main_c_13 : IVec S_ 1 := constantI S_ 1 1#1
  let main_v37 : IVec S_ 1 := (fun x v => Host.reduce IntOp.andi x v reducesTo_S4_S_d0 h_S_) main_v36 main_c_13
  let main_v38 : IVec S_ 1 := andi main_v33 main_v37
  let main_v39 : FVec F S256x4 .f32 := Host.absf main_arg9
  let main_cst_14 : FVec F S_ .f32 := constant S_ .f32 0x7F800000#32
  let main_v40 : FVec F S256x4 .f32 := broadcastInDim S256x4 ![] bcast_S_S256x4 main_cst_14
  let main_v41 : IVec S256x4 1 := cmpf .olt main_v39 main_v40
  let main_c_15 : IVec S_ 1 := constantI S_ 1 1#1
  let main_v42 : IVec S_ 1 := (fun x v => Host.reduce IntOp.andi x v reducesTo_S256x4_S_d0_1 h_S_) main_v41 main_c_15
  let main_v43 : IVec S_ 1 := andi main_v38 main_v42
  main_v43

def fn_part1 {F : FTy → Type} [FloatOps F] (main_arg5 : FVec F S256 .f32) (main_arg6 : FVec F S256x256 .f32) (main_arg7 : FVec F S256x4 .f32) (main_arg8 : FVec F S4 .f32) (main_arg9 : FVec F S256x4 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256x4 .f32 := Host.absf main_arg7
  let main_cst_10 : FVec F S_ .f32 := constant S_ .f32 0x7F800000#32
  let main_v30 : FVec F S256x4 .f32 := broadcastInDim S256x4 ![] bcast_S_S256x4 main_cst_10
  let main_v31 : IVec S256x4 1 := cmpf .olt main_v29 main_v30
  let main_c_11 : IVec S_ 1 := constantI S_ 1 1#1
  let main_v32 : IVec S_ 1 := (fun x v => Host.reduce IntOp.andi x v reducesTo_S256x4_S_d0_1 h_S_) main_v31 main_c_11
  let main_v33 : IVec S_ 1 := andi main_v28 main_v32
  fn_part2 (F := F) main_arg8 main_arg9 main_v33

def fn {F : FTy → Type} [FloatOps F] (main_arg0 : FVec F S20000x128x64 .f32) (main_arg1 : IVec S2x320000 32) (main_arg2 : FVec F S8192x256 .f32) (main_arg3 : FVec F S256 .f32) (main_arg4 : FVec F S256x256 .f32) (main_arg5 : FVec F S256 .f32) (main_arg6 : FVec F S256x256 .f32) (main_arg7 : FVec F S256x4 .f32) (main_arg8 : FVec F S4 .f32) (main_arg9 : FVec F S256x4 .f32) : IVec S_ 1 :=
  let main_v0 : FVec F S20000x128x64 .f32 := Host.absf main_arg0
  let main_cst : FVec F S_ .f32 := constant S_ .f32 0x7F800000#32
  let main_v1 : FVec F S20000x128x64 .f32 := broadcastInDim S20000x128x64 ![] bcast_S_S20000x128x64 main_cst
  let main_v2 : IVec S20000x128x64 1 := cmpf .olt main_v0 main_v1
  let main_c : IVec S_ 1 := constantI S_ 1 1#1
  let main_v3 : IVec S_ 1 := (fun x v => Host.reduce IntOp.andi x v reducesTo_S20000x128x64_S_d0_1_2 h_S_) main_v2 main_c
  let main_v4 : FVec F S8192x256 .f32 := Host.absf main_arg2
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_arg8 main_arg9 main_v13 main_v16
-- ==== Kernel.lean ====
abbrev S20000x128x64 : Shape := ⟨3, ![20000, 128, 64]⟩
abbrev S2x320000 : Shape := ⟨2, ![2, 320000]⟩
abbrev S8192x256 : Shape := ⟨2, ![8192, 256]⟩
abbrev S256 : Shape := ⟨1, ![256]⟩
abbrev S256x256 : Shape := ⟨2, ![256, 256]⟩
abbrev S256x4 : Shape := ⟨2, ![256, 4]⟩
abbrev S4 : Shape := ⟨1, ![4]⟩
abbrev S20000x8192 : Shape := ⟨2, ![20000, 8192]⟩
abbrev S1x320000 : Shape := ⟨2, ![1, 320000]⟩
abbrev S320000 : Shape := ⟨1, ![320000]⟩
abbrev S1x256 : Shape := ⟨2, ![1, 256]⟩
abbrev S20000x256 : Shape := ⟨2, ![20000, 256]⟩
abbrev S200x8192 : Shape := ⟨2, ![200, 8192]⟩
abbrev S200x256 : Shape := ⟨2, ![200, 256]⟩
abbrev S_ : Shape := ⟨0, ![]⟩
abbrev S20000 : Shape := ⟨1, ![20000]⟩
abbrev S320000x1 : Shape := ⟨2, ![320000, 1]⟩
abbrev S20000x1 : Shape := ⟨2, ![20000, 1]⟩
abbrev S320000x256 : Shape := ⟨2, ![320000, 256]⟩
abbrev S1000x256 : Shape := ⟨2, ![1000, 256]⟩
abbrev S1x4 : Shape := ⟨2, ![1, 4]⟩
abbrev S20000x4 : Shape := ⟨2, ![20000, 4]⟩
abbrev S1000x4 : Shape := ⟨2, ![1000, 4]⟩

abbrev nBuf : Space → Nat
  | .hbm => 66
  | .vmem => 24
  | .smem => 0
  | _ => 0

abbrev bufTy : (tb : Table) → Fin (tcTables nBuf tb) → BufTy
  | .hbm, ⟨0, _⟩ => ⟨S20000x128x64, .f32⟩
  | .hbm, ⟨1, _⟩ => ⟨S2x320000, .i32⟩
  | .hbm, ⟨2, _⟩ => ⟨S8192x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256x4, .f32⟩
  | .hbm, ⟨8, _⟩ => ⟨S4, .f32⟩
  | .hbm, ⟨9, _⟩ => ⟨S256x4, .f32⟩
  | .hbm, ⟨10, _⟩ => ⟨S20000x8192, .f32⟩
  | .hbm, ⟨11, _⟩ => ⟨S1x320000, .i32⟩
  | .hbm, ⟨12, _⟩ => ⟨S320000, .i32⟩
  | .hbm, ⟨13, _⟩ => ⟨S1x320000, .i32⟩
  | .hbm, ⟨14, _⟩ => ⟨S320000, .i32⟩
  | .hbm, ⟨15, _⟩ => ⟨S8192x256, .bf16⟩
  | .hbm, ⟨16, _⟩ => ⟨S1x256, .f32⟩
  | .hbm, ⟨17, _⟩ => ⟨S20000x256, .f32⟩
  | .hbm, ⟨18, _⟩ => ⟨S_, .f32⟩
  | .hbm, ⟨19, _⟩ => ⟨S320000, .f32⟩
  | .hbm, ⟨20, _⟩ => ⟨S_, .f32⟩
  | .hbm, ⟨21, _⟩ => ⟨S20000, .f32⟩
  | .hbm, ⟨22, _⟩ => ⟨S320000x1, .i32⟩
  | .hbm, ⟨23, _⟩ => ⟨S20000, .f32⟩
  | .hbm, ⟨24, _⟩ => ⟨S_, .f32⟩
  | .hbm, ⟨25, _⟩ => ⟨S20000, .f32⟩
  | .hbm, ⟨26, _⟩ => ⟨S20000, .f32⟩
  | .hbm, ⟨27, _⟩ => ⟨S20000x1, .f32⟩
  | .hbm, ⟨28, _⟩ => ⟨S_, .i32⟩
  | .hbm, ⟨29, _⟩ => ⟨S320000, .i32⟩
  | .hbm, ⟨30, _⟩ => ⟨S320000, .i1⟩
  | .hbm, ⟨31, _⟩ => ⟨S_, .i32⟩
  | .hbm, ⟨32, _⟩ => ⟨S320000, .i32⟩
  | .hbm, ⟨33, _⟩ => ⟨S320000, .i32⟩
  | .hbm, ⟨34, _⟩ => ⟨S320000, .i32⟩
  | .hbm, ⟨35, _⟩ => ⟨S320000x1, .i32⟩
  | .hbm, ⟨36, _⟩ => ⟨S320000x256, .f32⟩
  | .hbm, ⟨37, _⟩ => ⟨S_, .f32⟩
  | .hbm, ⟨38, _⟩ => ⟨S20000x256, .f32⟩
  | .hbm, ⟨39, _⟩ => ⟨S320000x1, .i32⟩
  | .hbm, ⟨40, _⟩ => ⟨S20000x256, .f32⟩
  | .hbm, ⟨41, _⟩ => ⟨S20000x256, .f32⟩
  | .hbm, ⟨42, _⟩ => ⟨S20000x256, .f32⟩
  | .hbm, ⟨43, _⟩ => ⟨S256x256, .bf16⟩
  | .hbm, ⟨44, _⟩ => ⟨S256x256, .bf16⟩
  | .hbm, ⟨45, _⟩ => ⟨S1x256, .f32⟩
  | .hbm, ⟨46, _⟩ => ⟨S20000x256, .f32⟩
  | .hbm, ⟨47, _⟩ => ⟨S_, .i32⟩
  | .hbm, ⟨48, _⟩ => ⟨S320000, .i32⟩
  | .hbm, ⟨49, _⟩ => ⟨S320000, .i1⟩
  | .hbm, ⟨50, _⟩ => ⟨S_, .i32⟩
  | .hbm, ⟨51, _⟩ => ⟨S320000, .i32⟩
  | .hbm, ⟨52, _⟩ => ⟨S320000, .i32⟩
  | .hbm, ⟨53, _⟩ => ⟨S320000, .i32⟩
  | .hbm, ⟨54, _⟩ => ⟨S320000x1, .i32⟩
  | .hbm, ⟨55, _⟩ => ⟨S320000x256, .f32⟩
  | .hbm, ⟨56, _⟩ => ⟨S_, .f32⟩
  | .hbm, ⟨57, _⟩ => ⟨S20000x256, .f32⟩
  | .hbm, ⟨58, _⟩ => ⟨S320000x1, .i32⟩
  | .hbm, ⟨59, _⟩ => ⟨S20000x256, .f32⟩
  | .hbm, ⟨60, _⟩ => ⟨S20000x256, .f32⟩
  | .hbm, ⟨61, _⟩ => ⟨S20000x256, .f32⟩
  | .hbm, ⟨62, _⟩ => ⟨S256x4, .bf16⟩
  | .hbm, ⟨63, _⟩ => ⟨S256x4, .bf16⟩
  | .hbm, ⟨64, _⟩ => ⟨S1x4, .f32⟩
  | .hbm, ⟨65, _⟩ => ⟨S20000x4, .f32⟩
  | .local _ .vmem, ⟨0, _⟩ => ⟨S200x8192, .f32⟩
  | .local _ .vmem, ⟨1, _⟩ => ⟨S200x8192, .f32⟩
  | .local _ .vmem, ⟨2, _⟩ => ⟨S8192x256, .bf16⟩
  | .local _ .vmem, ⟨3, _⟩ => ⟨S1x256, .f32⟩
  | .local _ .vmem, ⟨4, _⟩ => ⟨S200x256, .f32⟩
  | .local _ .vmem, ⟨5, _⟩ => ⟨S200x256, .f32⟩
  | .local _ .vmem, ⟨6, _⟩ => ⟨S1000x256, .f32⟩
  | .local _ .vmem, ⟨7, _⟩ => ⟨S1000x256, .f32⟩
  | .local _ .vmem, ⟨8, _⟩ => ⟨S1000x256, .f32⟩
  | .local _ .vmem, ⟨9, _⟩ => ⟨S1000x256, .f32⟩
  | .local _ .vmem, ⟨10, _⟩ => ⟨S256x256, .bf16⟩
  | .local _ .vmem, ⟨11, _⟩ => ⟨S1x256, .f32⟩
  | .local _ .vmem, ⟨12, _⟩ => ⟨S256x256, .bf16⟩
  | .local _ .vmem, ⟨13, _⟩ => ⟨S1000x256, .f32⟩
  | .local _ .vmem, ⟨14, _⟩ => ⟨S1000x256, .f32⟩
  | .local _ .vmem, ⟨15, _⟩ => ⟨S1000x256, .f32⟩
  | .local _ .vmem, ⟨16, _⟩ => ⟨S1000x256, .f32⟩
  | .local _ .vmem, ⟨17, _⟩ => ⟨S1000x256, .f32⟩
  | .local _ .vmem, ⟨18, _⟩ => ⟨S1000x256, .f32⟩
  | .local _ .vmem, ⟨19, _⟩ => ⟨S256x4, .bf16⟩
  | .local _ .vmem, ⟨20, _⟩ => ⟨S1x4, .f32⟩
  | .local _ .vmem, ⟨21, _⟩ => ⟨S256x4, .bf16⟩
  | .local _ .vmem, ⟨22, _⟩ => ⟨S1000x4, .f32⟩
  | .local _ .vmem, ⟨23, _⟩ => ⟨S1000x4, .f32⟩
  | _, _ => ⟨S20000x128x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_4 : Ref sig .tc := ⟨.hbm, 47, rfl⟩
abbrev main_v31 : Ref sig .tc := ⟨.hbm, 48, rfl⟩
abbrev main_v32 : Ref sig .tc := ⟨.hbm, 49, rfl⟩
abbrev main_c_5 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S200x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x4 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x4 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x4 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1000x4 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  shapeCasts_S20000x128x64_S20000x8192 : S20000x128x64.ShapeCasts S20000x8192
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bitsLt_bf16_f32 : FTy.bits .bf16 < FTy.bits .f32
  shapeCasts_S256_S1x256 : S256.ShapeCasts S1x256
  inb_S200x8192_S200x8192_0_0 : ∀ a, (![0, 0] : Fin 2 → Nat) a + S200x8192.size a ≤ S200x8192.size a
  h_S200x8192 : 0 < S200x8192.numel
  shapeCasts_S200x8192_S200x8192 : S200x8192.ShapeCasts S200x8192
  inb_S8192x256_S8192x256_0_0 : ∀ a, (![0, 0] : Fin 2 → Nat) a + S8192x256.size a ≤ S8192x256.size a
  h_S8192x256 : 0 < S8192x256.numel
  shapeCasts_S8192x256_S8192x256 : S8192x256.ShapeCasts S8192x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S200x256 : S1x256.Broadcasts S200x256
  inb_S200x256_S200x256_0_0 : ∀ a, (![0, 0] : Fin 2 → Nat) a + S200x256.size a ≤ S200x256.size a
  h_S200x256 : 0 < S200x256.numel
  bcast_S_S320000 : S_.BroadcastsInDim S320000 (![] : Fin 0 → Fin S320000.rank)
  bcast_S_S20000 : S_.BroadcastsInDim S20000 (![] : Fin 0 → Fin S20000.rank)
  bcast_S320000_S320000x1_0 : S320000.BroadcastsInDim S320000x1 (![0] : Fin 1 → Fin S320000x1.rank)
  bcast_S20000_S20000x1_0 : S20000.BroadcastsInDim S20000x1 (![0] : Fin 1 → Fin S20000x1.rank)
  bcast_S_S20000x256 : S_.BroadcastsInDim S20000x256 (![] : Fin 0 → Fin S20000x256.rank)
  bcast_S20000x1_S20000x256_0_1 : S20000x1.BroadcastsInDim S20000x256 (![0, 1] : Fin 2 → Fin S20000x256.rank)
  inb_S1000x256_S1000x256_0_0 : ∀ a, (![0, 0] : Fin 2 → Nat) a + S1000x256.size a ≤ S1000x256.size a
  h_S1000x256 : 0 < S1000x256.numel
  shapeCasts_S1000x256_S1000x256 : S1000x256.ShapeCasts S1000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  broadcasts_S1x256_S1000x256 : S1x256.Broadcasts S1000x256
  shapeCasts_S4_S1x4 : S4.ShapeCasts S1x4
  inb_S256x4_S256x4_0_0 : ∀ a, (![0, 0] : Fin 2 → Nat) a + S256x4.size a ≤ S256x4.size a
  h_S256x4 : 0 < S256x4.numel
  shapeCasts_S256x4_S256x4 : S256x4.ShapeCasts S256x4
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S1000x4 : S1x4.Broadcasts S1000x4
  inb_S1000x4_S1000x4_0_0 : ∀ a, (![0, 0] : Fin 2 → Nat) a + S1000x4.size a ≤ S1000x4.size a
  h_S1000x4 : 0 < S1000x4.numel
  dot_S200x8192_S8192x256_S200x256_1_0_0_1_n_n_wf : DotDims.WF S200x8192 S8192x256 S200x256 [1] [0] [0] [1] [] []
  scatter_S20000_S320000x1_S320000_n_0_0_1_wf : ScatterDims.WF S20000 S320000x1 S320000 [] [0] [0] 1
  gather_S20000x256_S320000x1_S320000x256_1_0_n_n_0_1_1256_wf : GatherDims.WF S20000x256 S320000x1 S320000x256 [1] [0] [] [0] [] 1 ![1, 256]
  scatter_S20000x256_S320000x1_S320000x256_1_0_0_1_wf : ScatterDims.WF S20000x256 S320000x1 S320000x256 [1] [0] [0] 1
  dot_S1000x256_S256x256_S1000x256_1_0_0_1_n_n_wf : DotDims.WF S1000x256 S256x256 S1000x256 [1] [0] [0] [1] [] []
  dot_S1000x256_S256x4_S1000x4_1_0_0_1_n_n_wf : DotDims.WF S1000x256 S256x4 S1000x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x8192.size a ≤ S20000x8192.size a
  hwx0_0 : ∀ i : grid0.Coords, EltTy.bits .f32 = 32 ∨ (Rect.block (s := S20000x8192) S200x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x256.size a ≤ S8192x256.size a
  hwx0_1 : ∀ i : grid0.Coords, EltTy.bits .bf16 = 32 ∨ (Rect.block (s := S8192x256) S8192x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S200x256.size a ≤ S20000x256.size a
  hwx0_3 : ∀ i : grid0.Coords, EltTy.bits .f32 = 32 ∨ (Rect.block (s := S20000x256) S200x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x256.size a ≤ S20000x256.size a
  hwx1_0 : ∀ i : grid1.Coords, EltTy.bits .f32 = 32 ∨ (Rect.block (s := S20000x256) S1000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x256.size a ≤ S20000x256.size a
  hwx1_1 : ∀ i : grid1.Coords, EltTy.bits .f32 = 32 ∨ (Rect.block (s := S20000x256) S1000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .bf16 = 32 ∨ (Rect.block (s := S256x256) S256x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .bf16 = 32 ∨ (Rect.block (s := S256x256) S256x256.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1000x256.size a ≤ S20000x256.size a
  hwx1_5 : ∀ i : grid1.Coords, EltTy.bits .f32 = 32 ∨ (Rect.block (s := S20000x256) S1000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x256.size a ≤ S20000x256.size a
  hwx2_0 : ∀ i : grid2.Coords, EltTy.bits .f32 = 32 ∨ (Rect.block (s := S20000x256) S1000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x256.size a ≤ S20000x256.size a
  hwx2_1 : ∀ i : grid2.Coords, EltTy.bits .f32 = 32 ∨ (Rect.block (s := S20000x256) S1000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x4.size a ≤ S256x4.size a
  hwx2_2 : ∀ i : grid2.Coords, EltTy.bits .bf16 = 32 ∨ (Rect.block (s := S256x4) S256x4.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x4.size a ≤ S1x4.size a
  hwx2_3 : ∀ i : grid2.Coords, EltTy.bits .f32 = 32 ∨ (Rect.block (s := S1x4) S1x4.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x4.size a ≤ S256x4.size a
  hwx2_4 : ∀ i : grid2.Coords, EltTy.bits .bf16 = 32 ∨ (Rect.block (s := S256x4) S256x4.size (cc2_transform_4 i) (hinb2_4 i)).WholeWords (EltTy.packing .bf16)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1000x4.size a ≤ S20000x4.size a
  hwx2_5 : ∀ i : grid2.Coords, EltTy.bits .f32 = 32 ∨ (Rect.block (s := S20000x4) S1000x4.size (cc2_transform_5 i) (hinb2_5 i)).WholeWords (EltTy.packing .f32)

variable [Facts₀]

def dot_S200x8192_S8192x256_S200x256_1_0_0_1_n_n : DotDims S200x8192 S8192x256 S200x256 where
  lhsContracting := [1]
  rhsContracting := [0]
  lhsNonContracting := [0]
  rhsNonContracting := [1]
  lhsBatch := []
  rhsBatch := []
  wf := dot_S200x8192_S8192x256_S200x256_1_0_0_1_n_n_wf
def scatter_S20000_S320000x1_S320000_n_0_0_1 : ScatterDims S20000 S320000x1 S320000 where
  updateWindowDims := []
  insertedWindowDims := [0]
  scatterDimsToOperandDims := [0]
  indexVectorDim := 1
  wf := scatter_S20000_S320000x1_S320000_n_0_0_1_wf
def gather_S20000x256_S320000x1_S320000x256_1_0_n_n_0_1_1256 : GatherDims S20000x256 S320000x1 S320000x256 where
  offsetDims := [1]
  collapsedSliceDims := [0]
  operandBatchingDims := []
  startIndicesBatchingDims := []
  startIndexMap := [0]
  indexVectorDim := 1
  sliceSizes := ![1, 256]
  wf := gather_S20000x256_S320000x1_S320000x256_1_0_n_n_0_1_1256_wf
def scatter_S20000x256_S320000x1_S320000x256_1_0_0_1 : ScatterDims S20000x256 S320000x1 S320000x256 where
  updateWindowDims := [1]
  insertedWindowDims := [0]
  scatterDimsToOperandDims := [0]
  indexVectorDim := 1
  wf := scatter_S20000x256_S320000x1_S320000x256_1_0_0_1_wf
def dot_S1000x256_S256x256_S1000x256_1_0_0_1_n_n : DotDims S1000x256 S256x256 S1000x256 where
  lhsContracting := [1]
  rhsContracting := [0]
  lhsNonContracting := [0]
  rhsNonContracting := [1]
  lhsBatch := []
  rhsBatch := []
  wf := dot_S1000x256_S256x256_S1000x256_1_0_0_1_n_n_wf
def dot_S1000x256_S256x4_S1000x4_1_0_0_1_n_n : DotDims S1000x256 S256x4 S1000x4 where
  lhsContracting := [1]
  rhsContracting := [0]
  lhsNonContracting := [0]
  rhsNonContracting := [1]
  lhsBatch := []
  rhsBatch := []
  wf := dot_S1000x256_S256x4_S1000x4_1_0_0_1_n_n_wf

abbrev win0_0 : Pipeline.Window sig grid0 :=
  Pipeline.Window.ofSpec (Memref.whole main_v0) S200x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S8192x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S200x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S1000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S1000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v30) S1000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v42) S1000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v30) S1000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v43) S256x4.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v45) S1x4.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v44) S256x4.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v46) S1000x4.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S20000x128x64 : Shape := ⟨3, ![20000, 128, 64]⟩
abbrev S2x320000 : Shape := ⟨2, ![2, 320000]⟩
abbrev S8192x256 : Shape := ⟨2, ![8192, 256]⟩
abbrev S256 : Shape := ⟨1, ![256]⟩
abbrev S256x256 : Shape := ⟨2, ![256, 256]⟩
abbrev S256x4 : Shape := ⟨2, ![256, 4]⟩
abbrev S4 : Shape := ⟨1, ![4]⟩
abbrev S1x320000 : Shape := ⟨2, ![1, 320000]⟩
abbrev S320000 : Shape := ⟨1, ![320000]⟩
abbrev S20000x8192 : Shape := ⟨2, ![20000, 8192]⟩
abbrev S20000x256 : Shape := ⟨2, ![20000, 256]⟩
abbrev S1x256 : Shape := ⟨2, ![1, 256]⟩
abbrev S_ : Shape := ⟨0, ![]⟩
abbrev S320000x1 : Shape := ⟨2, ![320000, 1]⟩
abbrev S320000x256 : Shape := ⟨2, ![320000, 256]⟩
abbrev S20000 : Shape := ⟨1, ![20000]⟩
abbrev S20000x1 : Shape := ⟨2, ![20000, 1]⟩
abbrev S20000x4 : Shape := ⟨2, ![20000, 4]⟩
abbrev S1x4 : Shape := ⟨2, ![1, 4]⟩

abbrev nBuf : Space → Nat
  | .hbm => 87
  | .vmem => 0
  | .smem => 0
  | _ => 0

abbrev bufTy : (tb : Table) → Fin (tcTables nBuf tb) → BufTy
  | .hbm, ⟨0, _⟩ => ⟨S20000x128x64, .f32⟩
  | .hbm, ⟨1, _⟩ => ⟨S2x320000, .i32⟩
  | .hbm, ⟨2, _⟩ => ⟨S8192x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256x4, .f32⟩
  | .hbm, ⟨8, _⟩ => ⟨S4, .f32⟩
  | .hbm, ⟨9, _⟩ => ⟨S256x4, .f32⟩
  | .hbm, ⟨10, _⟩ => ⟨S1x320000, .i32⟩
  | .hbm, ⟨11, _⟩ => ⟨S320000, .i32⟩
  | .hbm, ⟨12, _⟩ => ⟨S1x320000, .i32⟩
  | .hbm, ⟨13, _⟩ => ⟨S320000, .i32⟩
  | .hbm, ⟨14, _⟩ => ⟨S20000x8192, .f32⟩
  | .hbm, ⟨15, _⟩ => ⟨S20000x256, .f32⟩
  | .hbm, ⟨16, _⟩ => ⟨S1x256, .f32⟩
  | .hbm, ⟨17, _⟩ => ⟨S20000x256, .f32⟩
  | .hbm, ⟨18, _⟩ => ⟨S20000x256, .f32⟩
  | .hbm, ⟨19, _⟩ => ⟨S_, .f32⟩
  | .hbm, ⟨20, _⟩ => ⟨S20000x256, .f32⟩
  | .hbm, ⟨21, _⟩ => ⟨S20000x256, .f32⟩
  | .hbm, ⟨22, _⟩ => ⟨S_, .i32⟩
  | .hbm, ⟨23, _⟩ => ⟨S320000, .i32⟩
  | .hbm, ⟨24, _⟩ => ⟨S320000, .i1⟩
  | .hbm, ⟨25, _⟩ => ⟨S_, .i32⟩
  | .hbm, ⟨26, _⟩ => ⟨S320000, .i32⟩
  | .hbm, ⟨27, _⟩ => ⟨S320000, .i32⟩
  | .hbm, ⟨28, _⟩ => ⟨S320000, .i32⟩
  | .hbm, ⟨29, _⟩ => ⟨S320000x1, .i32⟩
  | .hbm, ⟨30, _⟩ => ⟨S320000x256, .f32⟩
  | .hbm, ⟨31, _⟩ => ⟨S_, .f32⟩
  | .hbm, ⟨32, _⟩ => ⟨S20000x256, .f32⟩
  | .hbm, ⟨33, _⟩ => ⟨S320000x1, .i32⟩
  | .hbm, ⟨34, _⟩ => ⟨S20000x256, .f32⟩
  | .hbm, ⟨35, _⟩ => ⟨S_, .f32⟩
  | .hbm, ⟨36, _⟩ => ⟨S320000, .f32⟩
  | .hbm, ⟨37, _⟩ => ⟨S_, .f32⟩
  | .hbm, ⟨38, _⟩ => ⟨S20000, .f32⟩
  | .hbm, ⟨39, _⟩ => ⟨S320000x1, .i32⟩
  | .hbm, ⟨40, _⟩ => ⟨S20000, .f32⟩
  | .hbm, ⟨41, _⟩ => ⟨S_, .f32⟩
  | .hbm, ⟨42, _⟩ => ⟨S20000, .f32⟩
  | .hbm, ⟨43, _⟩ => ⟨S20000, .f32⟩
  | .hbm, ⟨44, _⟩ => ⟨S20000x1, .f32⟩
  | .hbm, ⟨45, _⟩ => ⟨S20000x256, .f32⟩
  | .hbm, ⟨46, _⟩ => ⟨S20000x256, .f32⟩
  | .hbm, ⟨47, _⟩ => ⟨S20000x256, .f32⟩
  | .hbm, ⟨48, _⟩ => ⟨S1x256, .f32⟩
  | .hbm, ⟨49, _⟩ => ⟨S20000x256, .f32⟩
  | .hbm, ⟨50, _⟩ => ⟨S20000x256, .f32⟩
  | .hbm, ⟨51, _⟩ => ⟨S20000x256, .f32⟩
  | .hbm, ⟨52, _⟩ => ⟨S20000x256, .f32⟩
  | .hbm, ⟨53, _⟩ => ⟨S_, .f32⟩
  | .hbm, ⟨54, _⟩ => ⟨S20000x256, .f32⟩
  | .hbm, ⟨55, _⟩ => ⟨S20000x256, .f32⟩
  | .hbm, ⟨56, _⟩ => ⟨S_, .i32⟩
  | .hbm, ⟨57, _⟩ => ⟨S320000, .i32⟩
  | .hbm, ⟨58, _⟩ => ⟨S320000, .i1⟩
  | .hbm, ⟨59, _⟩ => ⟨S_, .i32⟩
  | .hbm, ⟨60, _⟩ => ⟨S320000, .i32⟩
  | .hbm, ⟨61, _⟩ => ⟨S320000, .i32⟩
  | .hbm, ⟨62, _⟩ => ⟨S320000, .i32⟩
  | .hbm, ⟨63, _⟩ => ⟨S320000x1, .i32⟩
  | .hbm, ⟨64, _⟩ => ⟨S320000x256, .f32⟩
  | .hbm, ⟨65, _⟩ => ⟨S_, .f32⟩
  | .hbm, ⟨66, _⟩ => ⟨S20000x256, .f32⟩
  | .hbm, ⟨67, _⟩ => ⟨S320000x1, .i32⟩
  | .hbm, ⟨68, _⟩ => ⟨S20000x256, .f32⟩
  | .hbm, ⟨69, _⟩ => ⟨S_, .f32⟩
  | .hbm, ⟨70, _⟩ => ⟨S320000, .f32⟩
  | .hbm, ⟨71, _⟩ => ⟨S_, .f32⟩
  | .hbm, ⟨72, _⟩ => ⟨S20000, .f32⟩
  | .hbm, ⟨73, _⟩ => ⟨S320000x1, .i32⟩
  | .hbm, ⟨74, _⟩ => ⟨S20000, .f32⟩
  | .hbm, ⟨75, _⟩ => ⟨S_, .f32⟩
  | .hbm, ⟨76, _⟩ => ⟨S20000, .f32⟩
  | .hbm, ⟨77, _⟩ => ⟨S20000, .f32⟩
  | .hbm, ⟨78, _⟩ => ⟨S20000x1, .f32⟩
  | .hbm, ⟨79, _⟩ => ⟨S20000x256, .f32⟩
  | .hbm, ⟨80, _⟩ => ⟨S20000x256, .f32⟩
  | .hbm, ⟨81, _⟩ => ⟨S20000x4, .f32⟩
  | .hbm, ⟨82, _⟩ => ⟨S1x4, .f32⟩
  | .hbm, ⟨83, _⟩ => ⟨S20000x4, .f32⟩
  | .hbm, ⟨84, _⟩ => ⟨S20000x4, .f32⟩
  | .hbm, ⟨85, _⟩ => ⟨S20000x4, .f32⟩
  | .hbm, ⟨86, _⟩ => ⟨S20000x4, .f32⟩
  | _, _ => ⟨S20000x128x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_call0_cst : Ref sig .tc := ⟨.hbm, 19, rfl⟩
abbrev main_call0_v0 : Ref sig .tc := ⟨.hbm, 20, rfl⟩
abbrev main_v9 : Ref sig .tc := ⟨.hbm, 21, rfl⟩
abbrev main_c : Ref sig .tc := ⟨.hbm, 22, rfl⟩
abbrev main_v10 : Ref sig .tc := ⟨.hbm, 23, rfl⟩
abbrev main_v11 : Ref sig .tc := ⟨.hbm, 24, rfl⟩
abbrev main_c_0 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_1 : Ref sig .tc := ⟨.hbm, 35, rfl⟩
abbrev main_v20 : Ref sig .tc := ⟨.hbm, 36, rfl⟩
abbrev main_cst_2 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_3 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_call1_cst : Ref sig .tc := ⟨.hbm, 53, rfl⟩
abbrev main_call1_v0 : Ref sig .tc := ⟨.hbm, 54, rfl⟩
abbrev main_v35 : Ref sig .tc := ⟨.hbm, 55, rfl⟩
abbrev main_c_4 : Ref sig .tc := ⟨.hbm, 56, rfl⟩
abbrev main_v36 : Ref sig .tc := ⟨.hbm, 57, rfl⟩
abbrev main_v37 : Ref sig .tc := ⟨.hbm, 58, rfl⟩
abbrev main_c_5 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_6 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_7 : Ref sig .tc := ⟨.hbm, 69, rfl⟩
abbrev main_v46 : Ref sig .tc := ⟨.hbm, 70, rfl⟩
abbrev main_cst_8 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_9 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  shapeCasts_S20000x128x64_S20000x8192 : S20000x128x64.ShapeCasts S20000x8192
  bcast_S256_S1x256_1 : S256.BroadcastsInDim S1x256 (![1] : Fin 1 → Fin S1x256.rank)
  bcast_S1x256_S20000x256_0_1 : S1x256.BroadcastsInDim S20000x256 (![0, 1] : Fin 2 → Fin S20000x256.rank)
  bcast_S_S20000x256 : S_.BroadcastsInDim S20000x256 (![] : Fin 0 → Fin S20000x256.rank)
  bcast_S_S320000 : S_.BroadcastsInDim S320000 (![] : Fin 0 → Fin S320000.rank)
  bcast_S320000_S320000x1_0 : S320000.BroadcastsInDim S320000x1 (![0] : Fin 1 → Fin S320000x1.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x256_0_1 : S20000x1.BroadcastsInDim S20000x256 (![0, 1] : Fin 2 → Fin S20000x256.rank)
  bcast_S4_S1x4_1 : S4.BroadcastsInDim S1x4 (![1] : Fin 1 → Fin S1x4.rank)
  bcast_S1x4_S20000x4_0_1 : S1x4.BroadcastsInDim S20000x4 (![0, 1] : Fin 2 → Fin S20000x4.rank)
  dot_S20000x8192_S8192x256_S20000x256_1_0_0_1_n_n_wf : DotDims.WF S20000x8192 S8192x256 S20000x256 [1] [0] [0] [1] [] []
  gather_S20000x256_S320000x1_S320000x256_1_0_n_n_0_1_1256_wf : GatherDims.WF S20000x256 S320000x1 S320000x256 [1] [0] [] [0] [] 1 ![1, 256]
  scatter_S20000x256_S320000x1_S320000x256_1_0_0_1_wf : ScatterDims.WF S20000x256 S320000x1 S320000x256 [1] [0] [0] 1
  scatter_S20000_S320000x1_S320000_n_0_0_1_wf : ScatterDims.WF S20000 S320000x1 S320000 [] [0] [0] 1
  dot_S20000x256_S256x256_S20000x256_1_0_0_1_n_n_wf : DotDims.WF S20000x256 S256x256 S20000x256 [1] [0] [0] [1] [] []
  dot_S20000x256_S256x4_S20000x4_1_0_0_1_n_n_wf : DotDims.WF S20000x256 S256x4 S20000x4 [1] [0] [0] [1] [] []

variable [Facts₀]

def dot_S20000x8192_S8192x256_S20000x256_1_0_0_1_n_n : DotDims S20000x8192 S8192x256 S20000x256 where
  lhsContracting := [1]
  rhsContracting := [0]
  lhsNonContracting := [0]
  rhsNonContracting := [1]
  lhsBatch := []
  rhsBatch := []
  wf := dot_S20000x8192_S8192x256_S20000x256_1_0_0_1_n_n_wf
def gather_S20000x256_S320000x1_S320000x256_1_0_n_n_0_1_1256 : GatherDims S20000x256 S320000x1 S320000x256 where
  offsetDims := [1]
  collapsedSliceDims := [0]
  operandBatchingDims := []
  startIndicesBatchingDims := []
  startIndexMap := [0]
  indexVectorDim := 1
  sliceSizes := ![1, 256]
  wf := gather_S20000x256_S320000x1_S320000x256_1_0_n_n_0_1_1256_wf
def scatter_S20000x256_S320000x1_S320000x256_1_0_0_1 : ScatterDims S20000x256 S320000x1 S320000x256 where
  updateWindowDims := [1]
  insertedWindowDims := [0]
  scatterDimsToOperandDims := [0]
  indexVectorDim := 1
  wf := scatter_S20000x256_S320000x1_S320000x256_1_0_0_1_wf
def scatter_S20000_S320000x1_S320000_n_0_0_1 : ScatterDims S20000 S320000x1 S320000 where
  updateWindowDims := []
  insertedWindowDims := [0]
  scatterDimsToOperandDims := [0]
  indexVectorDim := 1
  wf := scatter_S20000_S320000x1_S320000_n_0_0_1_wf
def dot_S20000x256_S256x256_S20000x256_1_0_0_1_n_n : DotDims S20000x256 S256x256 S20000x256 where
  lhsContracting := [1]
  rhsContracting := [0]
  lhsNonContracting := [0]
  rhsNonContracting := [1]
  lhsBatch := []
  rhsBatch := []
  wf := dot_S20000x256_S256x256_S20000x256_1_0_0_1_n_n_wf
def dot_S20000x256_S256x4_S20000x4_1_0_0_1_n_n : DotDims S20000x256 S256x4 S20000x4 where
  lhsContracting := [1]
  rhsContracting := [0]
  lhsNonContracting := [0]
  rhsNonContracting := [1]
  lhsBatch := []
  rhsBatch := []
  wf := dot_S20000x256_S256x4_S20000x4_1_0_0_1_n_n_wf

class Facts : Prop extends Facts₀ where

variable [Facts]
-- ==== Proof.KernelRun.lean ====
/-
  The idealized kernel's run with its result kept.

  @main is six segments: a stretch of host operations, the first dense stage on the TensorCore, a stretch that
  gathers neighbour rows, adds them up per destination node and divides by the degree, the second dense stage,
  the same aggregation once more, and the last dense stage. The buffer contents at each boundary are a fold
  through these segments from the launch memory (the generated `W0 … W6`), and at the end every unscoped buffer
  holds what the last boundary says. Reading that at the result buffer, and at each argument (which no segment
  writes), gives the run below: the result array ends at `W6` of its reference, the arguments as launched.
-/
import proofs.«134490_j29583734734919_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result array ends holding the last
    boundary's contents at its reference, and every argument array what it held at launch. -/
theorem run_result : θ_run defs (onTc (τ := τ) (main (F := F))) ⟨m, fun _ => 0, ρ⟩ (fun r => ∀ c : Dev nD,
      r.2.mem ((c.tc : Thread nD τ).loc main_v46) = W6 m ρ c (Proc.devRef .tc main_v46)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v46 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c)⟩)

end Cert.KernelIdeal.Run

end
-- ==== Proof.LibInnerProducts.lean ====
/-
  A matrix product and a sum along the last axis, read at an index on the extended reals.

  At the ideal values a matrix product of an `[M, K]` matrix with a `[K, N]` matrix, accumulated into zero, holds at
  `(p, f)` the inner product of row `p` of the left factor with column `f` of the right factor: the sum over `d` of
  `a (p, d) · w (d, f)`, with no rounding and no order of summation left in it. A sum of an `[a, b, c]` array along its
  last axis holds at `(p, q)` the sum over `f` of the array at `(p, q, f)`. Both are the library's general statements
  with the contraction index and the inserted coordinate written as a plain `Fin`.
-/
import Idealize.ShloMosaic.PureOps.Ideal.Laws
import Idealize.ShloMosaic.Lib.ValueIdx

noncomputable section

namespace Idealize.ShloMosaic.InnerProducts

open Idealize.ShloMosaic Idealize.ShloMosaic.ValueIdx
open scoped BigOperators

/-- An `[M, K]` by `[K, N]` matrix product into the zero accumulator is, at `(p, f)`, the inner product of row `p` of
    the left factor with column `f` of the right factor. `D` is any record of the plain dimension numbers (contract the
    left factor's columns with the right factor's rows, no batch axis). -/
theorem matmul_zero_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    matmul D prec a w (constant (F := Ideal) ⟨2, ![M, N]⟩ .f32 0x00000000#32) (ix2 p f)
      = ∑ d : Fin K, a (ix2 p d) * w (ix2 d f) := by
  subst hD
  refine (Ideal.matmul_constant_zero_apply (DotDims.plain M K N) prec a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- The host's `dot_general` with the same plain dimension numbers is the same inner product (it has no accumulator). -/
theorem dotGeneral_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    Host.dotGeneral D prec a w (ix2 p f) = ∑ d : Fin K, a (ix2 p d) * w (ix2 d f) := by
  subst hD
  refine (Ideal.dotGeneral_apply (DotDims.plain M K N) prec .single a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- A float sum of an `[a, b, c]` array along its last axis is, at `(p, q)`, the sum over `f` of the array at
    `(p, q, f)`. -/
theorem lane_sum_apply {a b c : ℕ} {φ : FTy} (x : FVec Ideal ⟨3, ![a, b, c]⟩ φ) (acc : BitVec φ.bits)
    (h : (⟨3, ![a, b, c]⟩ : Shape).Reduces [2] ⟨2, ![a, b]⟩) (hφ : FKind.Formats φ)
    (hacc : acc = FKind.add.neutral φ hφ) (p : Fin a) (q : Fin b) :
    multiReduction .add [2] ⟨2, ![a, b]⟩ x acc h hφ hacc (ix2 p q) = ∑ f : Fin c, x (ix3 p q f) := by
  refine (Ideal.multiReduction_add_single x acc h hφ hacc (ix2 p q)).trans ?_
  show ∑ f : Fin c, x (h.lift (ix2 p q) f) = ∑ f : Fin c, x (ix3 p q f)
  refine Finset.sum_congr rfl fun f _ => congrArg x (funext fun ax => Fin.ext ?_)
  match ax with
  | ⟨0, _⟩ => rfl
  | ⟨1, _⟩ => rfl
  | ⟨2, _⟩ => rfl

end Idealize.ShloMosaic.InnerProducts

end
-- ==== Proof.Payloads.lean ====
/-
  The three kernel bodies read at an index, on the extended reals.

  Each body loads whole blocks, multiplies on the matrix unit into a zero accumulator, adds a bias row and (in the
  first two) clamps at zero. Narrowing a float to a shorter format is the identity on the extended reals, a cast of a
  block to its own shape changes nothing, and a row [1, n] broadcast down the block reads the row. So entry (p, f)
  of what a body stores is

    first stage   max (sum_d x(p,d) w(d,f) + b(0,f)) 0
    second stage  max ((sum_d a(p,d) wl(d,f) + sum_d h(p,d) wr(d,f)) + b(0,f)) 0
    last stage    (sum_d a(p,d) wl(d,f) + sum_d h(p,d) wr(d,f)) + b(0,f)

  with the sums over the whole contracted axis, no order of summation and no rounding left.
-/
import proofs.«134490_j29583734734919_1_alg».proof.Proof.Gen.KernelIdeal.Skeleton
import proofs.«134490_j29583734734919_1_alg».proof.Proof.LibInnerProducts
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Dense

open Cert.KernelIdeal Cert.KernelIdeal.Gen
open Idealize.ShloMosaic Idealize.ShloMosaic.ValueIdx Idealize.ShloMosaic.InnerProducts
open scoped BigOperators

/-- The first stage's stored block at (p, f): row p of the input block against column f of the weights, plus the
    bias row's entry f, clamped at zero. -/
theorem pay0_apply (x : FVec Ideal S200x8192 .f32) (w : FVec Ideal S8192x256 .bf16) (b : FVec Ideal S1x256 .f32)
    (p : Fin 200) (f : Fin 256) :
    k0_pay1 (F := Ideal) x w b (ix2 p f)
      = max ((∑ d : Fin 8192, x (ix2 p d) * w (ix2 d f)) + b (ix2 (0 : Fin 1) f)) (Ideal.ofBits .f32 0x00000000#32) := by
  unfold k0_pay1
  simp only [shapeCast_self]
  show max ((matmul dot_S200x8192_S8192x256_S200x256_1_0_0_1_n_n none (truncf .bf16 x bitsLt_bf16_f32) w
        (constant (F := Ideal) S200x256 .f32 0x00000000#32)) (ix2 p f)
      + broadcastTo S200x256 b broadcasts_S1x256_S200x256 (ix2 p f)) (Ideal.ofBits .f32 0x00000000#32) = _
  have e1 := matmul_zero_apply dot_S200x8192_S8192x256_S200x256_1_0_0_1_n_n rfl none (truncf .bf16 x bitsLt_bf16_f32) w p f
  have e2 := broadcastTo_1b_ab_apply b broadcasts_S1x256_S200x256 p f
  rw [e1, e2]
  rfl

/-- The second stage's stored block at (p, f): the aggregated row against the left weights plus the node's own row
    against the right weights, plus the bias, clamped at zero. -/
theorem pay1_apply (a h : FVec Ideal S1000x256 .f32) (wl wr : FVec Ideal S256x256 .bf16) (b : FVec Ideal S1x256 .f32)
    (p : Fin 1000) (f : Fin 256) :
    k1_pay1 (F := Ideal) a h wl wr b (ix2 p f)
      = max (((∑ d : Fin 256, a (ix2 p d) * wl (ix2 d f)) + (∑ d : Fin 256, h (ix2 p d) * wr (ix2 d f)))
          + b (ix2 (0 : Fin 1) f)) (Ideal.ofBits .f32 0x00000000#32) := by
  unfold k1_pay1
  simp only [shapeCast_self]
  show max (((matmul dot_S1000x256_S256x256_S1000x256_1_0_0_1_n_n none (truncf .bf16 a bitsLt_bf16_f32) wl
        (constant (F := Ideal) S1000x256 .f32 0x00000000#32)) (ix2 p f)
      + (matmul dot_S1000x256_S256x256_S1000x256_1_0_0_1_n_n none (truncf .bf16 h bitsLt_bf16_f32) wr
        (constant (F := Ideal) S1000x256 .f32 0x00000000#32)) (ix2 p f))
      + broadcastTo S1000x256 b broadcasts_S1x256_S1000x256 (ix2 p f)) (Ideal.ofBits .f32 0x00000000#32) = _
  have e1 := matmul_zero_apply dot_S1000x256_S256x256_S1000x256_1_0_0_1_n_n rfl none (truncf .bf16 a bitsLt_bf16_f32) wl p f
  have e2 := matmul_zero_apply dot_S1000x256_S256x256_S1000x256_1_0_0_1_n_n rfl none (truncf .bf16 h bitsLt_bf16_f32) wr p f
  have e3 := broadcastTo_1b_ab_apply b broadcasts_S1x256_S1000x256 p f
  rw [e1, e2, e3]
  rfl

/-- The last stage's stored block at (p, f): as the second stage's, four output columns, not clamped. -/
theorem pay2_apply (a h : FVec Ideal S1000x256 .f32) (wl wr : FVec Ideal S256x4 .bf16) (b : FVec Ideal S1x4 .f32)
    (p : Fin 1000) (f : Fin 4) :
    k2_pay1 (F := Ideal) a h wl wr b (ix2 p f)
      = ((∑ d : Fin 256, a (ix2 p d) * wl (ix2 d f)) + (∑ d : Fin 256, h (ix2 p d) * wr (ix2 d f)))
          + b (ix2 (0 : Fin 1) f) := by
  unfold k2_pay1
  simp only [shapeCast_self]
  show ((matmul dot_S1000x256_S256x4_S1000x4_1_0_0_1_n_n none (truncf .bf16 a bitsLt_bf16_f32) wl
        (constant (F := Ideal) S1000x4 .f32 0x00000000#32)) (ix2 p f)
      + (matmul dot_S1000x256_S256x4_S1000x4_1_0_0_1_n_n none (truncf .bf16 h bitsLt_bf16_f32) wr
        (constant (F := Ideal) S1000x4 .f32 0x00000000#32)) (ix2 p f))
      + broadcastTo S1000x4 b broadcasts_S1x4_S1000x4 (ix2 p f) = _
  have e1 := matmul_zero_apply dot_S1000x256_S256x4_S1000x4_1_0_0_1_n_n rfl none (truncf .bf16 a bitsLt_bf16_f32) wl p f
  have e2 := matmul_zero_apply dot_S1000x256_S256x4_S1000x4_1_0_0_1_n_n rfl none (truncf .bf16 h bitsLt_bf16_f32) wr p f
  have e3 := broadcastTo_1b_ab_apply b broadcasts_S1x4_S1000x4 p f
  rw [e1, e2, e3]
  rfl

end Cert.KernelIdeal.Dense

end
-- ==== Proof.Pre.lean ====
/-
  The first dense stage as one function of whole arrays.

  The stage runs over a hundred points; point t takes rows 200 t … 200 t + 199 of the flattened input, the
  [8192, 256] weight matrix and the [1, 256] bias row whole, and writes back rows 200 t … 200 t + 199 of the result.
  Entry (r, f) of what a point stores depends only on row r of the input, so every write-back is the same
  function of the whole arrays read through the point's rows; the hundred row blocks tile the result, and the array
  ends holding

    result (r, f) = max (sum_d x(r,d) w(d,f) + bias(0,f)) 0.
-/
import proofs.«134490_j29583734734919_1_alg».proof.Proof.Gen.KernelIdeal.Frame
import proofs.«134490_j29583734734919_1_alg».proof.Proof.Payloads

set_option maxRecDepth 16384

noncomputable section

namespace Cert.KernelIdeal.Pre

open Cert.KernelIdeal Cert.KernelIdeal.Gen Cert.KernelIdeal.Dense
open Idealize.ShloMosaic Idealize.ShloMosaic.TcCoe Idealize.SL.Sem Idealize.ShloMosaic.ValueIdx
open Idealize.ShloMosaic.Pipeline (Dat)
open scoped BigOperators

/-- Entry (r, f) of the stage's result from whole arrays. -/
def entry (X : FVec Ideal S20000x8192 .f32) (W : FVec Ideal S8192x256 .bf16) (b : FVec Ideal S1x256 .f32)
    (r : Fin 20000) (f : Fin 256) : EReal :=
  max ((∑ d : Fin 8192, X (ix2 r d) * W (ix2 d f)) + b (ix2 (0 : Fin 1) f)) (Ideal.ofBits .f32 0x00000000#32)

/-- The stage's result as a whole array. -/
def stage (X : FVec Ideal S20000x8192 .f32) (W : FVec Ideal S8192x256 .bf16) (b : FVec Ideal S1x256 .f32) :
    FVec Ideal S20000x256 .f32 := fun i => entry X W b (i 0) (i 1)

theorem stage_apply (X : FVec Ideal S20000x8192 .f32) (W : FVec Ideal S8192x256 .bf16) (b : FVec Ideal S1x256 .f32)
    (r : Fin 20000) (f : Fin 256) : stage X W b (ix2 r f) = entry X W b r f := rfl

/-- A block's stored entry is the whole-array function at the entry's row. -/
theorem block_entry (X : FVec Ideal S20000x8192 .f32) (W : FVec Ideal S8192x256 .bf16) (b : FVec Ideal S1x256 .f32)
    (x : FVec Ideal S200x8192 .f32) (q : ℕ)
    (hx : ∀ (p : Fin 200) (d : Fin 8192) (r : Fin 20000), r.val = q * 200 + p.val → x (ix2 p d) = X (ix2 r d))
    (p : Fin 200) (f : Fin 256) (r : Fin 20000) (hr : r.val = q * 200 + p.val) :
    k0_pay1 (F := Ideal) x W b (ix2 p f) = stage X W b (ix2 r f) := by
  rw [pay0_apply, stage_apply]
  unfold entry
  rw [Finset.sum_congr rfl fun d _ => congrArg (· * W (ix2 d f)) (hx p d r hr)]

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the grid: the input and the result sit at block row t, column block 0; the
    weights and the bias at block (0, 0). -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The weights' block at any point is the whole matrix. -/
theorem weights (c : Dev nD) (t : Fin cfg0.N) : iblk0 V c 1 t = V c main_v5 := by
  obtain ⟨-, -, e0, e1, -⟩ := index_facts t
  funext y
  show V c main_v5 (((cfg0.win 1).blk t).view.emb y) = V c main_v5 y
  refine congrArg (V c main_v5) (funext fun a => Fin.ext ?_)
  match a with
  | ⟨0, _⟩ => show win0_1.index t (0 : Fin 2) * 8192 + 1 * (y 0).val = (y 0).val; rw [e0]; omega
  | ⟨1, _⟩ => show win0_1.index t (1 : Fin 2) * 256 + 1 * (y 1).val = (y 1).val; rw [e1]; omega

/-- The bias row's block at any point is the whole row. -/
theorem bias_row (c : Dev nD) (t : Fin cfg0.N) : iblk0 V c 2 t = V c main_v6 := by
  obtain ⟨-, -, -, -, e0, e1, -⟩ := index_facts t
  funext y
  show V c main_v6 (((cfg0.win 2).blk t).view.emb y) = V c main_v6 y
  refine congrArg (V c main_v6) (funext fun a => Fin.ext ?_)
  match a with
  | ⟨0, _⟩ => show win0_2.index t (0 : Fin 2) * 1 + 1 * (y 0).val = (y 0).val; rw [e0]; omega
  | ⟨1, _⟩ => show win0_2.index t (1 : Fin 2) * 256 + 1 * (y 1).val = (y 1).val; rw [e1]; omega

/-- Row p of the input's block at point t is row 200 t + p of the flattened input. -/
theorem input_rows (c : Dev nD) (t : Fin cfg0.N) (p : Fin 200) (d : Fin 8192) (r : Fin 20000)
    (hr : r.val = t.val * 200 + p.val) :
    (iblk0 V c 0 t : FVec Ideal S200x8192 .f32) (ix2 p d) = (V c main_v0 : FVec Ideal S20000x8192 .f32) (ix2 r d) := by
  obtain ⟨e0, e1, -⟩ := index_facts t
  show V c main_v0 (((cfg0.win 0).blk t).view.emb (ix2 p d)) = V c main_v0 (ix2 r d)
  refine congrArg (V c main_v0) (funext fun a => Fin.ext ?_)
  match a with
  | ⟨0, _⟩ => show win0_0.index t (0 : Fin 2) * 200 + 1 * p.val = r.val; rw [e0, hr]; omega
  | ⟨1, _⟩ => show win0_0.index t (1 : Fin 2) * 8192 + 1 * d.val = d.val; rw [e1]; omega

/-- What point t writes back is the whole-array function read through the point's rows. -/
theorem flushed_eq (c : Dev nD) (t : Fin cfg0.N) :
    (dat0 V c).flushed 3 t = ((cfg0.win 3).blk t).view.read (Elt Ideal)
      (stage (V c main_v0) (V c main_v5) (V c main_v6)) := by
  show (cfg0.win 3).cut (grid0.coords t) ((dat0 V c).after 3 t) = _
  rw [after0_3]
  unfold out0_3
  rw [View.canon_unit_zero zero_offsets]
  simp only [View.ld_unit_zero (S := S200x8192) zero_offsets, View.ld_unit_zero (S := S8192x256) zero_offsets,
    View.ld_unit_zero (S := S1x256) zero_offsets]
  rw [weights V c t, bias_row V c t]
  obtain ⟨-, -, -, -, -, -, e0, e1⟩ := index_facts t
  have ht : t.val < 100 := Nat.lt_of_lt_of_eq t.isLt (show cfg0.N = 100 from N_0)
  funext y
  obtain ⟨p, f, rfl⟩ : ∃ (p : Fin 200) (f : Fin 256), y = ix2 p f := ⟨y 0, y 1, eq_ix2 y⟩
  have hp := p.isLt
  let r : Fin 20000 := ⟨t.val * 200 + p.val, by omega⟩
  have hemb : ((cfg0.win 3).blk t).view.emb (ix2 p f) = ix2 r f := funext fun a => Fin.ext (by
    match a with
    | ⟨0, _⟩ => show win0_3.index t (0 : Fin 2) * 200 + 1 * p.val = t.val * 200 + p.val; rw [e0]; omega
    | ⟨1, _⟩ => show win0_3.index t (1 : Fin 2) * 256 + 1 * f.val = f.val; rw [e1]; omega)
  show k0_pay1 (F := Ideal) (iblk0 V c 0 t) (V c main_v5) (V c main_v6) (ix2 p f)
    = stage (V c main_v0) (V c main_v5) (V c main_v6) (((cfg0.win 3).blk t).view.emb (ix2 p f))
  rw [hemb]
  exact block_entry (V c main_v0) (V c main_v5) (V c main_v6) (iblk0 V c 0 t) t.val
    (fun p d r hr => input_rows V c t p d r hr) p f r rfl

/-- Membership in point t's block of the result, axis by axis. -/
theorem mem_block (t : Fin cfg0.N) (i : S20000x256.Idx) :
    i ∈ ((cfg0.win 3).blk t).view.set ↔ ∀ a : Fin 2, win0_3.index t a * S200x256.size a ≤ (i a).val
      ∧ (i a).val < win0_3.index t a * S200x256.size a + S200x256.size a := by
  show i ∈ ((View.whole main_v7).slice (win0_3.rect t)).set ↔ _
  rw [View.set_slice_whole, Rect.mem_set_unit]
  exact Iff.rfl

/-- The result array after the stage: the whole-array function everywhere. -/
theorem final (c : Dev nD) : (dat0 V c).arrAt 3 cfg0.N = stage (V c main_v0) (V c main_v5) (V c main_v6) :=
  (dat0 V c).arrAt_eq_of_cover 3 _ (fun t _ => flushed_eq V c t) fun i => by
    have hi0 : (i 0).val < 20000 := (i 0).isLt
    have hi1 : (i 1).val < 256 := (i 1).isLt
    have hN : cfg0.N = 100 := N_0
    let t : Fin cfg0.N := ⟨(i 0).val / 200, by rw [hN]; omega⟩
    obtain ⟨-, -, -, -, -, -, e0, e1⟩ := index_facts t
    refine ⟨t, flush0_3 t, ?_⟩
    rw [mem_block]
    intro a
    match a with
    | ⟨0, _⟩ =>
      show win0_3.index t (0 : Fin 2) * 200 ≤ (i 0).val ∧ (i 0).val < win0_3.index t (0 : Fin 2) * 200 + 200
      rw [e0]; show (i 0).val / 200 * 200 ≤ (i 0).val ∧ (i 0).val < (i 0).val / 200 * 200 + 200; omega
    | ⟨1, _⟩ =>
      show win0_3.index t (1 : Fin 2) * 256 ≤ (i 1).val ∧ (i 1).val < win0_3.index t (1 : Fin 2) * 256 + 256
      rw [e1]; omega

end Cert.KernelIdeal.Pre

end
-- ==== Proof.Hidden.lean ====
/-
  The second dense stage as one function of whole arrays.

  The stage runs over twenty points; point t takes rows 1000 t … 1000 t + 999 of the aggregated array and of the
  node array, the two weight matrices and the bias row whole, and writes back rows 1000 t … 1000 t + 999 of the
  result. Entry (r, f) of what a point stores depends only on row r of the two row arrays, so every write-back is
  the same function of the whole arrays read through the point's rows; the twenty row blocks tile the result, and
  the array ends holding that function everywhere:

    result (r, f) = max ((sum_d agg(r,d) wl(d,f) + sum_d node(r,d) wr(d,f)) + bias(0,f)) 0.
-/
import proofs.«134490_j29583734734919_1_alg».proof.Proof.Gen.KernelIdeal.Frame
import proofs.«134490_j29583734734919_1_alg».proof.Proof.Payloads

set_option maxRecDepth 16384

noncomputable section

namespace Cert.KernelIdeal.Hidden

open Cert.KernelIdeal Cert.KernelIdeal.Gen Cert.KernelIdeal.Dense
open Idealize.ShloMosaic Idealize.ShloMosaic.TcCoe Idealize.SL.Sem Idealize.ShloMosaic.ValueIdx
open Idealize.ShloMosaic.Pipeline (Dat)
open scoped BigOperators

/-- Entry (r, f) of the stage's result from whole arrays. -/
def entry (A H : FVec Ideal S20000x256 .f32) (Wl Wr : FVec Ideal S256x256 .bf16) (b : FVec Ideal S1x256 .f32)
    (r : Fin 20000) (f : Fin 256) : EReal :=
  max (((∑ d : Fin 256, A (ix2 r d) * Wl (ix2 d f)) + (∑ d : Fin 256, H (ix2 r d) * Wr (ix2 d f)))
    + b (ix2 (0 : Fin 1) f)) (Ideal.ofBits .f32 0x00000000#32)

/-- The stage's result as a whole array. -/
def stage (A H : FVec Ideal S20000x256 .f32) (Wl Wr : FVec Ideal S256x256 .bf16) (b : FVec Ideal S1x256 .f32) :
    FVec Ideal S20000x256 .f32 := fun i => entry A H Wl Wr b (i 0) (i 1)

theorem stage_apply (A H : FVec Ideal S20000x256 .f32) (Wl Wr : FVec Ideal S256x256 .bf16) (b : FVec Ideal S1x256 .f32)
    (r : Fin 20000) (f : Fin 256) : stage A H Wl Wr b (ix2 r f) = entry A H Wl Wr b r f := rfl

/-- A block's stored entry is the whole-array function at the entry's row: the block's rows are rows of the
    row arrays, its weights and bias the whole ones. -/
theorem block_entry (A H : FVec Ideal S20000x256 .f32) (Wl Wr : FVec Ideal S256x256 .bf16) (b : FVec Ideal S1x256 .f32)
    (a h : FVec Ideal S1000x256 .f32) (q : ℕ)
    (ha : ∀ (p : Fin 1000) (d : Fin 256) (r : Fin 20000), r.val = q * 1000 + p.val → a (ix2 p d) = A (ix2 r d))
    (hh : ∀ (p : Fin 1000) (d : Fin 256) (r : Fin 20000), r.val = q * 1000 + p.val → h (ix2 p d) = H (ix2 r d))
    (p : Fin 1000) (f : Fin 256) (r : Fin 20000) (hr : r.val = q * 1000 + p.val) :
    k1_pay1 (F := Ideal) a h Wl Wr b (ix2 p f) = stage A H Wl Wr b (ix2 r f) := by
  rw [pay1_apply, stage_apply]
  unfold entry
  rw [Finset.sum_congr rfl fun d _ => congrArg (· * Wl (ix2 d f)) (ha p d r hr),
    Finset.sum_congr rfl fun d _ => congrArg (· * Wr (ix2 d f)) (hh p d r hr)]

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the grid: the three row windows sit at block row t, column block 0; the weights
    and the bias at block (0, 0). -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The left weights' block at any point is the whole matrix. -/
theorem weights_left (c : Dev nD) (t : Fin cfg1.N) : iblk1 V c 2 t = V c main_v27 := by
  obtain ⟨-, -, -, -, e0, e1, -⟩ := index_facts t
  funext y
  show V c main_v27 (((cfg1.win 2).blk t).view.emb y) = V c main_v27 y
  refine congrArg (V c main_v27) (funext fun a => Fin.ext ?_)
  match a with
  | ⟨0, _⟩ => show win1_2.index t (0 : Fin 2) * 256 + 1 * (y 0).val = (y 0).val; rw [e0]; omega
  | ⟨1, _⟩ => show win1_2.index t (1 : Fin 2) * 256 + 1 * (y 1).val = (y 1).val; rw [e1]; omega

/-- The right weights' block at any point is the whole matrix. -/
theorem weights_right (c : Dev nD) (t : Fin cfg1.N) : iblk1 V c 4 t = V c main_v28 := by
  obtain ⟨-, -, -, -, -, -, -, -, e0, e1, -⟩ := index_facts t
  funext y
  show V c main_v28 (((cfg1.win 4).blk t).view.emb y) = V c main_v28 y
  refine congrArg (V c main_v28) (funext fun a => Fin.ext ?_)
  match a with
  | ⟨0, _⟩ => show win1_4.index t (0 : Fin 2) * 256 + 1 * (y 0).val = (y 0).val; rw [e0]; omega
  | ⟨1, _⟩ => show win1_4.index t (1 : Fin 2) * 256 + 1 * (y 1).val = (y 1).val; rw [e1]; omega

/-- The bias row's block at any point is the whole row. -/
theorem bias_row (c : Dev nD) (t : Fin cfg1.N) : iblk1 V c 3 t = V c main_v29 := by
  obtain ⟨-, -, -, -, -, -, e0, e1, -⟩ := index_facts t
  funext y
  show V c main_v29 (((cfg1.win 3).blk t).view.emb y) = V c main_v29 y
  refine congrArg (V c main_v29) (funext fun a => Fin.ext ?_)
  match a with
  | ⟨0, _⟩ => show win1_3.index t (0 : Fin 2) * 1 + 1 * (y 0).val = (y 0).val; rw [e0]; omega
  | ⟨1, _⟩ => show win1_3.index t (1 : Fin 2) * 256 + 1 * (y 1).val = (y 1).val; rw [e1]; omega

/-- Row p of the aggregated array's block at point t is row 1000 t + p of the array. -/
theorem agg_rows (c : Dev nD) (t : Fin cfg1.N) (p : Fin 1000) (d : Fin 256) (r : Fin 20000)
    (hr : r.val = t.val * 1000 + p.val) :
    (iblk1 V c 0 t : FVec Ideal S1000x256 .f32) (ix2 p d) = (V c main_v26 : FVec Ideal S20000x256 .f32) (ix2 r d) := by
  obtain ⟨e0, e1, -⟩ := index_facts t
  show V c main_v26 (((cfg1.win 0).blk t).view.emb (ix2 p d)) = V c main_v26 (ix2 r d)
  refine congrArg (V c main_v26) (funext fun a => Fin.ext ?_)
  match a with
  | ⟨0, _⟩ => show win1_0.index t (0 : Fin 2) * 1000 + 1 * p.val = r.val; rw [e0, hr]; omega
  | ⟨1, _⟩ => show win1_0.index t (1 : Fin 2) * 256 + 1 * d.val = d.val; rw [e1]; omega

/-- Row p of the node array's block at point t is row 1000 t + p of the array. -/
theorem node_rows (c : Dev nD) (t : Fin cfg1.N) (p : Fin 1000) (d : Fin 256) (r : Fin 20000)
    (hr : r.val = t.val * 1000 + p.val) :
    (iblk1 V c 1 t : FVec Ideal S1000x256 .f32) (ix2 p d) = (V c main_v7 : FVec Ideal S20000x256 .f32) (ix2 r d) := by
  obtain ⟨-, -, e0, e1, -⟩ := index_facts t
  show V c main_v7 (((cfg1.win 1).blk t).view.emb (ix2 p d)) = V c main_v7 (ix2 r d)
  refine congrArg (V c main_v7) (funext fun a => Fin.ext ?_)
  match a with
  | ⟨0, _⟩ => show win1_1.index t (0 : Fin 2) * 1000 + 1 * p.val = r.val; rw [e0, hr]; omega
  | ⟨1, _⟩ => show win1_1.index t (1 : Fin 2) * 256 + 1 * d.val = d.val; rw [e1]; omega

/-- What point t writes back is the whole-array function read through the point's rows. -/
theorem flushed_eq (c : Dev nD) (t : Fin cfg1.N) :
    (dat1 V c).flushed 5 t = ((cfg1.win 5).blk t).view.read (Elt Ideal)
      (stage (V c main_v26) (V c main_v7) (V c main_v27) (V c main_v28) (V c main_v29)) := by
  show (cfg1.win 5).cut (grid1.coords t) ((dat1 V c).after 5 t) = _
  rw [after1_5]
  unfold out1_5
  rw [View.canon_unit_zero zero_offsets]
  simp only [View.ld_unit_zero (S := S1000x256) zero_offsets, View.ld_unit_zero (S := S256x256) zero_offsets,
    View.ld_unit_zero (S := S1x256) zero_offsets]
  rw [weights_left V c t, weights_right V c t, bias_row V c t]
  obtain ⟨-, -, -, -, -, -, -, -, -, -, e0, e1⟩ := index_facts t
  have ht : t.val < 20 := Nat.lt_of_lt_of_eq t.isLt (show cfg1.N = 20 from N_1)
  funext y
  obtain ⟨p, f, rfl⟩ : ∃ (p : Fin 1000) (f : Fin 256), y = ix2 p f := ⟨y 0, y 1, eq_ix2 y⟩
  have hp := p.isLt
  let r : Fin 20000 := ⟨t.val * 1000 + p.val, by omega⟩
  have hemb : ((cfg1.win 5).blk t).view.emb (ix2 p f) = ix2 r f := funext fun a => Fin.ext (by
    match a with
    | ⟨0, _⟩ => show win1_5.index t (0 : Fin 2) * 1000 + 1 * p.val = t.val * 1000 + p.val; rw [e0]; omega
    | ⟨1, _⟩ => show win1_5.index t (1 : Fin 2) * 256 + 1 * f.val = f.val; rw [e1]; omega)
  show k1_pay1 (F := Ideal) (iblk1 V c 0 t) (iblk1 V c 1 t) (V c main_v27) (V c main_v28) (V c main_v29) (ix2 p f)
    = stage (V c main_v26) (V c main_v7) (V c main_v27) (V c main_v28) (V c main_v29) (((cfg1.win 5).blk t).view.emb (ix2 p f))
  rw [hemb]
  exact block_entry (V c main_v26) (V c main_v7) (V c main_v27) (V c main_v28) (V c main_v29) (iblk1 V c 0 t) (iblk1 V c 1 t) t.val
    (fun p d r hr => agg_rows V c t p d r hr) (fun p d r hr => node_rows V c t p d r hr) p f r rfl

/-- Membership in point t's block of the result, axis by axis. -/
theorem mem_block (t : Fin cfg1.N) (i : S20000x256.Idx) :
    i ∈ ((cfg1.win 5).blk t).view.set ↔ ∀ a : Fin 2, win1_5.index t a * S1000x256.size a ≤ (i a).val
      ∧ (i a).val < win1_5.index t a * S1000x256.size a + S1000x256.size a := by
  show i ∈ ((View.whole main_v30).slice (win1_5.rect t)).set ↔ _
  rw [View.set_slice_whole, Rect.mem_set_unit]
  exact Iff.rfl

/-- The result array after the stage: the whole-array function everywhere. -/
theorem final (c : Dev nD) : (dat1 V c).arrAt 5 cfg1.N
    = stage (V c main_v26) (V c main_v7) (V c main_v27) (V c main_v28) (V c main_v29) :=
  (dat1 V c).arrAt_eq_of_cover 5 _ (fun t _ => flushed_eq V c t) fun i => by
    have hi0 : (i 0).val < 20000 := (i 0).isLt
    have hi1 : (i 1).val < 256 := (i 1).isLt
    have hN : cfg1.N = 20 := N_1
    let t : Fin cfg1.N := ⟨(i 0).val / 1000, by rw [hN]; omega⟩
    obtain ⟨-, -, -, -, -, -, -, -, -, -, e0, e1⟩ := index_facts t
    refine ⟨t, flush1_5 t, ?_⟩
    rw [mem_block]
    intro a
    match a with
    | ⟨0, _⟩ =>
      show win1_5.index t (0 : Fin 2) * 1000 ≤ (i 0).val ∧ (i 0).val < win1_5.index t (0 : Fin 2) * 1000 + 1000
      rw [e0]; show (i 0).val / 1000 * 1000 ≤ (i 0).val ∧ (i 0).val < (i 0).val / 1000 * 1000 + 1000; omega
    | ⟨1, _⟩ =>
      show win1_5.index t (1 : Fin 2) * 256 ≤ (i 1).val ∧ (i 1).val < win1_5.index t (1 : Fin 2) * 256 + 256
      rw [e1]; omega

end Cert.KernelIdeal.Hidden

end
-- ==== Proof.Logits.lean ====
/-
  The last dense stage as one function of whole arrays.

  Twenty points again; point t takes rows 1000 t … 1000 t + 999 of the second aggregated array and of the second
  node array, the two [256, 4] weight matrices and the [1, 4] bias row whole, and writes back rows
  1000 t … 1000 t + 999 of the [20000, 4] result. As before each write-back is one function of the whole arrays
  read through the point's rows, the row blocks tile the result, and the array ends holding

    result (r, f) = (sum_d agg(r,d) wl(d,f) + sum_d node(r,d) wr(d,f)) + bias(0,f),

  this time with nothing clamped.
-/
import proofs.«134490_j29583734734919_1_alg».proof.Proof.Gen.KernelIdeal.Frame
import proofs.«134490_j29583734734919_1_alg».proof.Proof.Payloads

set_option maxRecDepth 16384

noncomputable section

namespace Cert.KernelIdeal.Logits

open Cert.KernelIdeal Cert.KernelIdeal.Gen Cert.KernelIdeal.Dense
open Idealize.ShloMosaic Idealize.ShloMosaic.TcCoe Idealize.SL.Sem Idealize.ShloMosaic.ValueIdx
open Idealize.ShloMosaic.Pipeline (Dat)
open scoped BigOperators

/-- Entry (r, f) of the stage's result from whole arrays. -/
def entry (A H : FVec Ideal S20000x256 .f32) (Wl Wr : FVec Ideal S256x4 .bf16) (b : FVec Ideal S1x4 .f32)
    (r : Fin 20000) (f : Fin 4) : EReal :=
  ((∑ d : Fin 256, A (ix2 r d) * Wl (ix2 d f)) + (∑ d : Fin 256, H (ix2 r d) * Wr (ix2 d f)))
    + b (ix2 (0 : Fin 1) f)

/-- The stage's result as a whole array. -/
def stage (A H : FVec Ideal S20000x256 .f32) (Wl Wr : FVec Ideal S256x4 .bf16) (b : FVec Ideal S1x4 .f32) :
    FVec Ideal S20000x4 .f32 := fun i => entry A H Wl Wr b (i 0) (i 1)

theorem stage_apply (A H : FVec Ideal S20000x256 .f32) (Wl Wr : FVec Ideal S256x4 .bf16) (b : FVec Ideal S1x4 .f32)
    (r : Fin 20000) (f : Fin 4) : stage A H Wl Wr b (ix2 r f) = entry A H Wl Wr b r f := rfl

/-- A block's stored entry is the whole-array function at the entry's row: the block's rows are rows of the
    row arrays, its weights and bias the whole ones. -/
theorem block_entry (A H : FVec Ideal S20000x256 .f32) (Wl Wr : FVec Ideal S256x4 .bf16) (b : FVec Ideal S1x4 .f32)
    (a h : FVec Ideal S1000x256 .f32) (q : ℕ)
    (ha : ∀ (p : Fin 1000) (d : Fin 256) (r : Fin 20000), r.val = q * 1000 + p.val → a (ix2 p d) = A (ix2 r d))
    (hh : ∀ (p : Fin 1000) (d : Fin 256) (r : Fin 20000), r.val = q * 1000 + p.val → h (ix2 p d) = H (ix2 r d))
    (p : Fin 1000) (f : Fin 4) (r : Fin 20000) (hr : r.val = q * 1000 + p.val) :
    k2_pay1 (F := Ideal) a h Wl Wr b (ix2 p f) = stage A H Wl Wr b (ix2 r f) := by
  rw [pay2_apply, stage_apply]
  unfold entry
  rw [Finset.sum_congr rfl fun d _ => congrArg (· * Wl (ix2 d f)) (ha p d r hr),
    Finset.sum_congr rfl fun d _ => congrArg (· * Wr (ix2 d f)) (hh p d r hr)]

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the grid: the three row windows sit at block row t, column block 0; the weights
    and the bias at block (0, 0). -/
theorem index_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The left weights' block at any point is the whole matrix. -/
theorem weights_left (c : Dev nD) (t : Fin cfg2.N) : iblk2 V c 2 t = V c main_v43 := by
  obtain ⟨-, -, -, -, e0, e1, -⟩ := index_facts t
  funext y
  show V c main_v43 (((cfg2.win 2).blk t).view.emb y) = V c main_v43 y
  refine congrArg (V c main_v43) (funext fun a => Fin.ext ?_)
  match a with
  | ⟨0, _⟩ => show win2_2.index t (0 : Fin 2) * 256 + 1 * (y 0).val = (y 0).val; rw [e0]; omega
  | ⟨1, _⟩ => show win2_2.index t (1 : Fin 2) * 4 + 1 * (y 1).val = (y 1).val; rw [e1]; omega

/-- The right weights' block at any point is the whole matrix. -/
theorem weights_right (c : Dev nD) (t : Fin cfg2.N) : iblk2 V c 4 t = V c main_v44 := by
  obtain ⟨-, -, -, -, -, -, -, -, e0, e1, -⟩ := index_facts t
  funext y
  show V c main_v44 (((cfg2.win 4).blk t).view.emb y) = V c main_v44 y
  refine congrArg (V c main_v44) (funext fun a => Fin.ext ?_)
  match a with
  | ⟨0, _⟩ => show win2_4.index t (0 : Fin 2) * 256 + 1 * (y 0).val = (y 0).val; rw [e0]; omega
  | ⟨1, _⟩ => show win2_4.index t (1 : Fin 2) * 4 + 1 * (y 1).val = (y 1).val; rw [e1]; omega

/-- The bias row's block at any point is the whole row. -/
theorem bias_row (c : Dev nD) (t : Fin cfg2.N) : iblk2 V c 3 t = V c main_v45 := by
  obtain ⟨-, -, -, -, -, -, e0, e1, -⟩ := index_facts t
  funext y
  show V c main_v45 (((cfg2.win 3).blk t).view.emb y) = V c main_v45 y
  refine congrArg (V c main_v45) (funext fun a => Fin.ext ?_)
  match a with
  | ⟨0, _⟩ => show win2_3.index t (0 : Fin 2) * 1 + 1 * (y 0).val = (y 0).val; rw [e0]; omega
  | ⟨1, _⟩ => show win2_3.index t (1 : Fin 2) * 4 + 1 * (y 1).val = (y 1).val; rw [e1]; omega

/-- Row p of the aggregated array's block at point t is row 1000 t + p of the array. -/
theorem agg_rows (c : Dev nD) (t : Fin cfg2.N) (p : Fin 1000) (d : Fin 256) (r : Fin 20000)
    (hr : r.val = t.val * 1000 + p.val) :
    (iblk2 V c 0 t : FVec Ideal S1000x256 .f32) (ix2 p d) = (V c main_v42 : FVec Ideal S20000x256 .f32) (ix2 r d) := by
  obtain ⟨e0, e1, -⟩ := index_facts t
  show V c main_v42 (((cfg2.win 0).blk t).view.emb (ix2 p d)) = V c main_v42 (ix2 r d)
  refine congrArg (V c main_v42) (funext fun a => Fin.ext ?_)
  match a with
  | ⟨0, _⟩ => show win2_0.index t (0 : Fin 2) * 1000 + 1 * p.val = r.val; rw [e0, hr]; omega
  | ⟨1, _⟩ => show win2_0.index t (1 : Fin 2) * 256 + 1 * d.val = d.val; rw [e1]; omega

/-- Row p of the node array's block at point t is row 1000 t + p of the array. -/
theorem node_rows (c : Dev nD) (t : Fin cfg2.N) (p : Fin 1000) (d : Fin 256) (r : Fin 20000)
    (hr : r.val = t.val * 1000 + p.val) :
    (iblk2 V c 1 t : FVec Ideal S1000x256 .f32) (ix2 p d) = (V c main_v30 : FVec Ideal S20000x256 .f32) (ix2 r d) := by
  obtain ⟨-, -, e0, e1, -⟩ := index_facts t
  show V c main_v30 (((cfg2.win 1).blk t).view.emb (ix2 p d)) = V c main_v30 (ix2 r d)
  refine congrArg (V c main_v30) (funext fun a => Fin.ext ?_)
  match a with
  | ⟨0, _⟩ => show win2_1.index t (0 : Fin 2) * 1000 + 1 * p.val = r.val; rw [e0, hr]; omega
  | ⟨1, _⟩ => show win2_1.index t (1 : Fin 2) * 256 + 1 * d.val = d.val; rw [e1]; omega

/-- What point t writes back is the whole-array function read through the point's rows. -/
theorem flushed_eq (c : Dev nD) (t : Fin cfg2.N) :
    (dat2 V c).flushed 5 t = ((cfg2.win 5).blk t).view.read (Elt Ideal)
      (stage (V c main_v42) (V c main_v30) (V c main_v43) (V c main_v44) (V c main_v45)) := by
  show (cfg2.win 5).cut (grid2.coords t) ((dat2 V c).after 5 t) = _
  rw [after2_5]
  unfold out2_5
  rw [View.canon_unit_zero zero_offsets]
  simp only [View.ld_unit_zero (S := S1000x256) zero_offsets, View.ld_unit_zero (S := S256x4) zero_offsets,
    View.ld_unit_zero (S := S1x4) zero_offsets]
  rw [weights_left V c t, weights_right V c t, bias_row V c t]
  obtain ⟨-, -, -, -, -, -, -, -, -, -, e0, e1⟩ := index_facts t
  have ht : t.val < 20 := Nat.lt_of_lt_of_eq t.isLt (show cfg2.N = 20 from N_2)
  funext y
  obtain ⟨p, f, rfl⟩ : ∃ (p : Fin 1000) (f : Fin 4), y = ix2 p f := ⟨y 0, y 1, eq_ix2 y⟩
  have hp := p.isLt
  let r : Fin 20000 := ⟨t.val * 1000 + p.val, by omega⟩
  have hemb : ((cfg2.win 5).blk t).view.emb (ix2 p f) = ix2 r f := funext fun a => Fin.ext (by
    match a with
    | ⟨0, _⟩ => show win2_5.index t (0 : Fin 2) * 1000 + 1 * p.val = t.val * 1000 + p.val; rw [e0]; omega
    | ⟨1, _⟩ => show win2_5.index t (1 : Fin 2) * 4 + 1 * f.val = f.val; rw [e1]; omega)
  show k2_pay1 (F := Ideal) (iblk2 V c 0 t) (iblk2 V c 1 t) (V c main_v43) (V c main_v44) (V c main_v45) (ix2 p f)
    = stage (V c main_v42) (V c main_v30) (V c main_v43) (V c main_v44) (V c main_v45) (((cfg2.win 5).blk t).view.emb (ix2 p f))
  rw [hemb]
  exact block_entry (V c main_v42) (V c main_v30) (V c main_v43) (V c main_v44) (V c main_v45) (iblk2 V c 0 t) (iblk2 V c 1 t) t.val
    (fun p d r hr => agg_rows V c t p d r hr) (fun p d r hr => node_rows V c t p d r hr) p f r rfl

/-- Membership in point t's block of the result, axis by axis. -/
theorem mem_block (t : Fin cfg2.N) (i : S20000x4.Idx) :
    i ∈ ((cfg2.win 5).blk t).view.set ↔ ∀ a : Fin 2, win2_5.index t a * S1000x4.size a ≤ (i a).val
      ∧ (i a).val < win2_5.index t a * S1000x4.size a + S1000x4.size a := by
  show i ∈ ((View.whole main_v46).slice (win2_5.rect t)).set ↔ _
  rw [View.set_slice_whole, Rect.mem_set_unit]
  exact Iff.rfl

/-- The result array after the stage: the whole-array function everywhere. -/
theorem final (c : Dev nD) : (dat2 V c).arrAt 5 cfg2.N
    = stage (V c main_v42) (V c main_v30) (V c main_v43) (V c main_v44) (V c main_v45) :=
  (dat2 V c).arrAt_eq_of_cover 5 _ (fun t _ => flushed_eq V c t) fun i => by
    have hi0 : (i 0).val < 20000 := (i 0).isLt
    have hi1 : (i 1).val < 4 := (i 1).isLt
    have hN : cfg2.N = 20 := N_2
    let t : Fin cfg2.N := ⟨(i 0).val / 1000, by rw [hN]; omega⟩
    obtain ⟨-, -, -, -, -, -, -, -, -, -, e0, e1⟩ := index_facts t
    refine ⟨t, flush2_5 t, ?_⟩
    rw [mem_block]
    intro a
    match a with
    | ⟨0, _⟩ =>
      show win2_5.index t (0 : Fin 2) * 1000 ≤ (i 0).val ∧ (i 0).val < win2_5.index t (0 : Fin 2) * 1000 + 1000
      rw [e0]; show (i 0).val / 1000 * 1000 ≤ (i 0).val ∧ (i 0).val < (i 0).val / 1000 * 1000 + 1000; omega
    | ⟨1, _⟩ =>
      show win2_5.index t (1 : Fin 2) * 4 ≤ (i 1).val ∧ (i 1).val < win2_5.index t (1 : Fin 2) * 4 + 4
      rw [e1]; omega

end Cert.KernelIdeal.Logits

end
-- ==== Proof.Boundaries.lean ====
/-
  The idealized kernel's buffers at the segment boundaries, and its result as one function of the arguments.

  Walking the fold of @main's segments: the first stretch flattens the input, narrows the first weight matrix
  (the identity on the extended reals) and gives the bias a unit axis; the first stage leaves the pre-transformed
  node array; the second stretch computes the in-degree column once and the first mean aggregation, and prepares the
  first layer's weights and bias; the second stage leaves the first layer's node array; the third stretch aggregates
  that array with the SAME in-degree column and prepares the second layer's weights and bias; the last stage leaves the
  result. Buffers a segment does not write are carried over unchanged. The aggregation (gather, add per destination,
  divide by the degree) is kept as one function of the source row, the destination row, the degree column and the node
  array; nothing in it is opened.
-/
import proofs.«134490_j29583734734919_1_alg».proof.Proof.Pre
import proofs.«134490_j29583734734919_1_alg».proof.Proof.Hidden
import proofs.«134490_j29583734734919_1_alg».proof.Proof.Logits
import Idealize.ShloMosaic.Lib.StableHlo.Run

set_option maxRecDepth 16384

noncomputable section

namespace Cert.KernelIdeal.Boundary

open Cert.KernelIdeal Cert.KernelIdeal.Gen
open Idealize.ShloMosaic Idealize.ShloMosaic.TcCoe Idealize.SL.Sem Idealize.ShloMosaic.StableHlo

/-- Row 0 of the edge list: every edge's source node. -/
def srcRow (e : (⟨S2x320000, .i32⟩ : BufTy).Contents (Elt Ideal)) : (⟨S320000, .i32⟩ : BufTy).Contents (Elt Ideal) :=
  shapeCast S320000 (extractStridedSlice S1x320000 ![0, 0] e slices_S2x320000_S1x320000_0_0) shapeCasts_S1x320000_S320000

/-- Row 1 of the edge list: every edge's destination node. -/
def dstRow (e : (⟨S2x320000, .i32⟩ : BufTy).Contents (Elt Ideal)) : (⟨S320000, .i32⟩ : BufTy).Contents (Elt Ideal) :=
  shapeCast S320000 (extractStridedSlice S1x320000 ![1, 0] e slices_S2x320000_S1x320000_1_0) shapeCasts_S1x320000_S320000

/-- The in-degree of every node, at least one, as a column. -/
def degreeCol (dst : (⟨S320000, .i32⟩ : BufTy).Contents (Elt Ideal)) : (⟨S20000x1, .f32⟩ : BufTy).Contents (Elt Ideal) :=
  broadcastInDim S20000x1 ![0] bcast_S20000_S20000x1_0
    (maximumf (Host.scatterAdd scatter_S20000_S320000x1_S320000_n_0_0_1
        (broadcastInDim S20000 ![] bcast_S_S20000 (constant (F := Ideal) S_ .f32 0x00000000#32))
        (broadcastInDim S320000x1 ![0] bcast_S320000_S320000x1_0 dst)
        (broadcastInDim S320000 ![] bcast_S_S320000 (constant (F := Ideal) S_ .f32 0x3F800000#32)))
      (broadcastInDim S20000 ![] bcast_S_S20000 (constant (F := Ideal) S_ .f32 0x3F800000#32)))

/-- Mean aggregation with the degree column given: gather each edge's source row, add the rows up per destination
    node, divide by the degree. -/
def agg (src dst : (⟨S320000, .i32⟩ : BufTy).Contents (Elt Ideal)) (deg : (⟨S20000x1, .f32⟩ : BufTy).Contents (Elt Ideal))
    (h : (⟨S20000x256, .f32⟩ : BufTy).Contents (Elt Ideal)) : (⟨S20000x256, .f32⟩ : BufTy).Contents (Elt Ideal) :=
  Host.divf (F := Ideal) (Host.scatterAdd scatter_S20000x256_S320000x1_S320000x256_1_0_0_1
      (broadcastInDim S20000x256 ![] bcast_S_S20000x256 (constant (F := Ideal) S_ .f32 0x00000000#32))
      (broadcastInDim S320000x1 ![0] bcast_S320000_S320000x1_0 dst)
      (Host.gather gather_S20000x256_S320000x1_S320000x256_1_0_n_n_0_1_1256 h
        (broadcastInDim S320000x1 ![0] bcast_S320000_S320000x1_0
          (select (cmpi .slt src (broadcastInDim S320000 ![] bcast_S_S320000 (constantI S_ 32 0#32)))
            (addi src (broadcastInDim S320000 ![] bcast_S_S320000 (constantI S_ 32 20000#32))) src))))
    (broadcastInDim S20000x256 ![0, 1] bcast_S20000x1_S20000x256_0_1 deg)

variable (m : (ℓ : Loc nD τ sig) → Buf (Elt Ideal) ℓ) (ρ : Dev nD → PrngReg)

/-! ## After the first stretch -/

theorem w1_v0 (c : Dev nD) : W1 m ρ c (Proc.devRef .tc main_v0)
    = shapeCast S20000x8192 (m ((c : Thread nD τ).loc main_arg0)) shapeCasts_S20000x128x64_S20000x8192 := by
  show StableHlo.after hostOps0 (W0 m ρ c) (Proc.devRef .tc main_v0) = _
  dsimp only [hostOps0]; after_results; rfl

theorem w1_v2 (c : Dev nD) : W1 m ρ c (Proc.devRef .tc main_v2) = srcRow (m ((c : Thread nD τ).loc main_arg1)) := by
  show StableHlo.after hostOps0 (W0 m ρ c) (Proc.devRef .tc main_v2) = _
  dsimp only [hostOps0]; after_results; rfl

theorem w1_v4 (c : Dev nD) : W1 m ρ c (Proc.devRef .tc main_v4) = dstRow (m ((c : Thread nD τ).loc main_arg1)) := by
  show StableHlo.after hostOps0 (W0 m ρ c) (Proc.devRef .tc main_v4) = _
  dsimp only [hostOps0]; after_results; rfl

theorem w1_v5 (c : Dev nD) : @Eq (FVec Ideal S8192x256 .bf16) (W1 m ρ c (Proc.devRef .tc main_v5))
    (truncf .bf16 (m ((c : Thread nD τ).loc main_arg2) : FVec Ideal S8192x256 .f32) bitsLt_bf16_f32) := by
  show StableHlo.after hostOps0 (W0 m ρ c) (Proc.devRef .tc main_v5) = _
  dsimp only [hostOps0]; after_results

theorem w1_v6 (c : Dev nD) : W1 m ρ c (Proc.devRef .tc main_v6)
    = shapeCast S1x256 (m ((c : Thread nD τ).loc main_arg3)) shapeCasts_S256_S1x256 := by
  show StableHlo.after hostOps0 (W0 m ρ c) (Proc.devRef .tc main_v6) = _
  dsimp only [hostOps0]; after_results; rfl

/-- An argument the first stretch does not write holds its launch contents. -/
theorem w1_arg4 (c : Dev nD) : W1 m ρ c (Proc.devRef .tc main_arg4) = m ((c : Thread nD τ).loc main_arg4) := by
  show StableHlo.after hostOps0 (W0 m ρ c) (Proc.devRef .tc main_arg4) = _
  dsimp only [hostOps0]; after_results
theorem w1_arg5 (c : Dev nD) : W1 m ρ c (Proc.devRef .tc main_arg5) = m ((c : Thread nD τ).loc main_arg5) := by
  show StableHlo.after hostOps0 (W0 m ρ c) (Proc.devRef .tc main_arg5) = _
  dsimp only [hostOps0]; after_results
theorem w1_arg6 (c : Dev nD) : W1 m ρ c (Proc.devRef .tc main_arg6) = m ((c : Thread nD τ).loc main_arg6) := by
  show StableHlo.after hostOps0 (W0 m ρ c) (Proc.devRef .tc main_arg6) = _
  dsimp only [hostOps0]; after_results
theorem w1_arg7 (c : Dev nD) : W1 m ρ c (Proc.devRef .tc main_arg7) = m ((c : Thread nD τ).loc main_arg7) := by
  show StableHlo.after hostOps0 (W0 m ρ c) (Proc.devRef .tc main_arg7) = _
  dsimp only [hostOps0]; after_results
theorem w1_arg8 (c : Dev nD) : W1 m ρ c (Proc.devRef .tc main_arg8) = m ((c : Thread nD τ).loc main_arg8) := by
  show StableHlo.after hostOps0 (W0 m ρ c) (Proc.devRef .tc main_arg8) = _
  dsimp only [hostOps0]; after_results
theorem w1_arg9 (c : Dev nD) : W1 m ρ c (Proc.devRef .tc main_arg9) = m ((c : Thread nD τ).loc main_arg9) := by
  show StableHlo.after hostOps0 (W0 m ρ c) (Proc.devRef .tc main_arg9) = _
  dsimp only [hostOps0]; after_results

/-! ## After the first stage -/

/-- The pre-transformed node array. -/
def h0 (c : Dev nD) : FVec Ideal S20000x256 .f32 :=
  Pre.stage (shapeCast S20000x8192 (m ((c : Thread nD τ).loc main_arg0)) shapeCasts_S20000x128x64_S20000x8192)
    (truncf .bf16 (m ((c : Thread nD τ).loc main_arg2) : FVec Ideal S8192x256 .f32) bitsLt_bf16_f32)
    (shapeCast S1x256 (m ((c : Thread nD τ).loc main_arg3)) shapeCasts_S256_S1x256)

theorem w2_v7 (c : Dev nD) : W2 m ρ c (Proc.devRef .tc main_v7) = h0 m c := by
  refine (W2_arr m ρ c 3).trans ?_
  refine (Pre.final (V1 m ρ) c).trans ?_
  show Pre.stage (W1 m ρ c (Proc.devRef .tc main_v0)) (W1 m ρ c (Proc.devRef .tc main_v5)) (W1 m ρ c (Proc.devRef .tc main_v6)) = _
  rw [w1_v0, w1_v5, w1_v6]
  rfl

theorem w2_v2 (c : Dev nD) : W2 m ρ c (Proc.devRef .tc main_v2) = srcRow (m ((c : Thread nD τ).loc main_arg1)) :=
  (W2_of_ne m ρ c main_v2 (by decide)).trans (w1_v2 m ρ c)
theorem w2_v4 (c : Dev nD) : W2 m ρ c (Proc.devRef .tc main_v4) = dstRow (m ((c : Thread nD τ).loc main_arg1)) :=
  (W2_of_ne m ρ c main_v4 (by decide)).trans (w1_v4 m ρ c)
theorem w2_arg4 (c : Dev nD) : W2 m ρ c (Proc.devRef .tc main_arg4) = m ((c : Thread nD τ).loc main_arg4) :=
  (W2_of_ne m ρ c main_arg4 (by decide)).trans (w1_arg4 m ρ c)
theorem w2_arg5 (c : Dev nD) : W2 m ρ c (Proc.devRef .tc main_arg5) = m ((c : Thread nD τ).loc main_arg5) :=
  (W2_of_ne m ρ c main_arg5 (by decide)).trans (w1_arg5 m ρ c)
theorem w2_arg6 (c : Dev nD) : W2 m ρ c (Proc.devRef .tc main_arg6) = m ((c : Thread nD τ).loc main_arg6) :=
  (W2_of_ne m ρ c main_arg6 (by decide)).trans (w1_arg6 m ρ c)
theorem w2_arg7 (c : Dev nD) : W2 m ρ c (Proc.devRef .tc main_arg7) = m ((c : Thread nD τ).loc main_arg7) :=
  (W2_of_ne m ρ c main_arg7 (by decide)).trans (w1_arg7 m ρ c)
theorem w2_arg8 (c : Dev nD) : W2 m ρ c (Proc.devRef .tc main_arg8) = m ((c : Thread nD τ).loc main_arg8) :=
  (W2_of_ne m ρ c main_arg8 (by decide)).trans (w1_arg8 m ρ c)
theorem w2_arg9 (c : Dev nD) : W2 m ρ c (Proc.devRef .tc main_arg9) = m ((c : Thread nD τ).loc main_arg9) :=
  (W2_of_ne m ρ c main_arg9 (by decide)).trans (w1_arg9 m ρ c)

/-! ## After the second stretch -/

set_option maxHeartbeats 4000000 in
theorem w3_v26 (c : Dev nD) : W3 m ρ c (Proc.devRef .tc main_v26)
    = agg (W2 m ρ c (Proc.devRef .tc main_v2)) (W2 m ρ c (Proc.devRef .tc main_v4))
        (degreeCol (W2 m ρ c (Proc.devRef .tc main_v4))) (W2 m ρ c (Proc.devRef .tc main_v7)) := by
  show StableHlo.after hostOps1 (W2 m ρ c) (Proc.devRef .tc main_v26) = _
  generalize W2 m ρ c = U
  dsimp only [hostOps1]; after_results_simp <;> rfl

theorem w3_v14 (c : Dev nD) : W3 m ρ c (Proc.devRef .tc main_v14) = degreeCol (W2 m ρ c (Proc.devRef .tc main_v4)) := by
  show StableHlo.after hostOps1 (W2 m ρ c) (Proc.devRef .tc main_v14) = _
  generalize W2 m ρ c = U
  dsimp only [hostOps1]; after_results; rfl

theorem w3_v27 (c : Dev nD) : @Eq (FVec Ideal S256x256 .bf16) (W3 m ρ c (Proc.devRef .tc main_v27))
    (truncf .bf16 (W2 m ρ c (Proc.devRef .tc main_arg4) : FVec Ideal S256x256 .f32) bitsLt_bf16_f32) := by
  show StableHlo.after hostOps1 (W2 m ρ c) (Proc.devRef .tc main_v27) = _
  generalize W2 m ρ c = U
  dsimp only [hostOps1]; after_results

theorem w3_v28 (c : Dev nD) : @Eq (FVec Ideal S256x256 .bf16) (W3 m ρ c (Proc.devRef .tc main_v28))
    (truncf .bf16 (W2 m ρ c (Proc.devRef .tc main_arg6) : FVec Ideal S256x256 .f32) bitsLt_bf16_f32) := by
  show StableHlo.after hostOps1 (W2 m ρ c) (Proc.devRef .tc main_v28) = _
  generalize W2 m ρ c = U
  dsimp only [hostOps1]; after_results

theorem w3_v29 (c : Dev nD) : W3 m ρ c (Proc.devRef .tc main_v29)
    = shapeCast S1x256 (W2 m ρ c (Proc.devRef .tc main_arg5)) shapeCasts_S256_S1x256 := by
  show StableHlo.after hostOps1 (W2 m ρ c) (Proc.devRef .tc main_v29) = _
  generalize W2 m ρ c = U
  dsimp only [hostOps1]; after_results; rfl

/-- A buffer the second stretch does not write is carried over. -/
theorem w3_keep (c : Dev nD) (b : Ref sig .tc)
    (hb : b = main_v7 ∨ b = main_v2 ∨ b = main_v4 ∨ b = main_arg7 ∨ b = main_arg8 ∨ b = main_arg9) :
    W3 m ρ c (Proc.devRef .tc b) = W2 m ρ c (Proc.devRef .tc b) := by
  show StableHlo.after hostOps1 (W2 m ρ c) (Proc.devRef .tc b) = _
  generalize W2 m ρ c = U
  rcases hb with rfl | rfl | rfl | rfl | rfl | rfl <;> (dsimp only [hostOps1]; after_results)

/-! ## After the second stage -/

/-- The first layer's node array. -/
def h1 (c : Dev nD) : FVec Ideal S20000x256 .f32 :=
  Hidden.stage
    (agg (srcRow (m ((c : Thread nD τ).loc main_arg1))) (dstRow (m ((c : Thread nD τ).loc main_arg1)))
      (degreeCol (dstRow (m ((c : Thread nD τ).loc main_arg1)))) (h0 m c))
    (h0 m c)
    (truncf .bf16 (m ((c : Thread nD τ).loc main_arg4) : FVec Ideal S256x256 .f32) bitsLt_bf16_f32)
    (truncf .bf16 (m ((c : Thread nD τ).loc main_arg6) : FVec Ideal S256x256 .f32) bitsLt_bf16_f32)
    (shapeCast S1x256 (m ((c : Thread nD τ).loc main_arg5)) shapeCasts_S256_S1x256)

theorem w4_v30 (c : Dev nD) : W4 m ρ c (Proc.devRef .tc main_v30) = h1 m c := by
  refine (W4_arr m ρ c 5).trans ?_
  refine (Hidden.final (V3 m ρ) c).trans ?_
  show Hidden.stage (W3 m ρ c (Proc.devRef .tc main_v26)) (W3 m ρ c (Proc.devRef .tc main_v7))
    (W3 m ρ c (Proc.devRef .tc main_v27)) (W3 m ρ c (Proc.devRef .tc main_v28)) (W3 m ρ c (Proc.devRef .tc main_v29)) = _
  rw [w3_v26, w3_keep m ρ c main_v7 (.inl rfl), w3_v27, w3_v28, w3_v29, w2_v2, w2_v4, w2_v7, w2_arg4, w2_arg5, w2_arg6]
  rfl

theorem w4_v2 (c : Dev nD) : W4 m ρ c (Proc.devRef .tc main_v2) = srcRow (m ((c : Thread nD τ).loc main_arg1)) :=
  (W4_of_ne m ρ c main_v2 (by decide)).trans ((w3_keep m ρ c main_v2 (.inr (.inl rfl))).trans (w2_v2 m ρ c))
theorem w4_v4 (c : Dev nD) : W4 m ρ c (Proc.devRef .tc main_v4) = dstRow (m ((c : Thread nD τ).loc main_arg1)) :=
  (W4_of_ne m ρ c main_v4 (by decide)).trans ((w3_keep m ρ c main_v4 (.inr (.inr (.inl rfl)))).trans (w2_v4 m ρ c))
theorem w4_v14 (c : Dev nD) : W4 m ρ c (Proc.devRef .tc main_v14) = degreeCol (dstRow (m ((c : Thread nD τ).loc main_arg1))) :=
  (W4_of_ne m ρ c main_v14 (by decide)).trans ((w3_v14 m ρ c).trans (by rw [w2_v4]))
theorem w4_arg7 (c : Dev nD) : W4 m ρ c (Proc.devRef .tc main_arg7) = m ((c : Thread nD τ).loc main_arg7) :=
  (W4_of_ne m ρ c main_arg7 (by decide)).trans ((w3_keep m ρ c main_arg7 (.inr (.inr (.inr (.inl rfl))))).trans (w2_arg7 m ρ c))
theorem w4_arg8 (c : Dev nD) : W4 m ρ c (Proc.devRef .tc main_arg8) = m ((c : Thread nD τ).loc main_arg8) :=
  (W4_of_ne m ρ c main_arg8 (by decide)).trans ((w3_keep m ρ c main_arg8 (.inr (.inr (.inr (.inr (.inl rfl)))))).trans (w2_arg8 m ρ c))
theorem w4_arg9 (c : Dev nD) : W4 m ρ c (Proc.devRef .tc main_arg9) = m ((c : Thread nD τ).loc main_arg9) :=
  (W4_of_ne m ρ c main_arg9 (by decide)).trans ((w3_keep m ρ c main_arg9 (.inr (.inr (.inr (.inr (.inr rfl)))))).trans (w2_arg9 m ρ c))

/-! ## After the third stretch -/

set_option maxHeartbeats 4000000 in
theorem w5_v42 (c : Dev nD) : W5 m ρ c (Proc.devRef .tc main_v42)
    = agg (W4 m ρ c (Proc.devRef .tc main_v2)) (W4 m ρ c (Proc.devRef .tc main_v4))
        (W4 m ρ c (Proc.devRef .tc main_v14)) (W4 m ρ c (Proc.devRef .tc main_v30)) := by
  show StableHlo.after hostOps2 (W4 m ρ c) (Proc.devRef .tc main_v42) = _
  generalize W4 m ρ c = U
  dsimp only [hostOps2]; after_results_simp <;> rfl

theorem w5_v30 (c : Dev nD) : W5 m ρ c (Proc.devRef .tc main_v30) = W4 m ρ c (Proc.devRef .tc main_v30) := by
  show StableHlo.after hostOps2 (W4 m ρ c) (Proc.devRef .tc main_v30) = _
  generalize W4 m ρ c = U
  dsimp only [hostOps2]; after_results

theorem w5_v43 (c : Dev nD) : @Eq (FVec Ideal S256x4 .bf16) (W5 m ρ c (Proc.devRef .tc main_v43))
    (truncf .bf16 (W4 m ρ c (Proc.devRef .tc main_arg7) : FVec Ideal S256x4 .f32) bitsLt_bf16_f32) := by
  show StableHlo.after hostOps2 (W4 m ρ c) (Proc.devRef .tc main_v43) = _
  generalize W4 m ρ c = U
  dsimp only [hostOps2]; after_results

theorem w5_v44 (c : Dev nD) : @Eq (FVec Ideal S256x4 .bf16) (W5 m ρ c (Proc.devRef .tc main_v44))
    (truncf .bf16 (W4 m ρ c (Proc.devRef .tc main_arg9) : FVec Ideal S256x4 .f32) bitsLt_bf16_f32) := by
  show StableHlo.after hostOps2 (W4 m ρ c) (Proc.devRef .tc main_v44) = _
  generalize W4 m ρ c = U
  dsimp only [hostOps2]; after_results

theorem w5_v45 (c : Dev nD) : W5 m ρ c (Proc.devRef .tc main_v45)
    = shapeCast S1x4 (W4 m ρ c (Proc.devRef .tc main_arg8)) shapeCasts_S4_S1x4 := by
  show StableHlo.after hostOps2 (W4 m ρ c) (Proc.devRef .tc main_v45) = _
  generalize W4 m ρ c = U
  dsimp only [hostOps2]; after_results; rfl

/-! ## The result -/

/-- The result array as one function of the argument arrays. -/
def result (c : Dev nD) : FVec Ideal S20000x4 .f32 :=
  Logits.stage
    (agg (srcRow (m ((c : Thread nD τ).loc main_arg1))) (dstRow (m ((c : Thread nD τ).loc main_arg1)))
      (degreeCol (dstRow (m ((c : Thread nD τ).loc main_arg1)))) (h1 m c))
    (h1 m c)
    (truncf .bf16 (m ((c : Thread nD τ).loc main_arg7) : FVec Ideal S256x4 .f32) bitsLt_bf16_f32)
    (truncf .bf16 (m ((c : Thread nD τ).loc main_arg9) : FVec Ideal S256x4 .f32) bitsLt_bf16_f32)
    (shapeCast S1x4 (m ((c : Thread nD τ).loc main_arg8)) shapeCasts_S4_S1x4)

/-- The last boundary's contents at the result buffer. -/
theorem w6_v46 (c : Dev nD) : W6 m ρ c (Proc.devRef .tc main_v46) = result m c := by
  refine (W6_arr m ρ c 5).trans ?_
  refine (Logits.final (V5 m ρ) c).trans ?_
  show Logits.stage (W5 m ρ c (Proc.devRef .tc main_v42)) (W5 m ρ c (Proc.devRef .tc main_v30))
    (W5 m ρ c (Proc.devRef .tc main_v43)) (W5 m ρ c (Proc.devRef .tc main_v44)) (W5 m ρ c (Proc.devRef .tc main_v45)) = _
  rw [w5_v42, w5_v30, w5_v43, w5_v44, w5_v45, w4_v2, w4_v4, w4_v14, w4_v30, w4_arg7, w4_arg8, w4_arg9]
  rfl

end Cert.KernelIdeal.Boundary

end
-- ==== Proof.LibInDimRow.lean ====
/-
  Two broadcasts of a bias row, read at an index given by coordinates.

  A vector [b] placed on axis 1 of [1, b] reads entry j at (0, j); a row [1, b] spread over [a, b] with its axes kept in
  place reads its one row at (i, j), whatever the row i.  Both are the host's broadcast_in_dim: a broadcast never moves a
  coordinate, it reads the operand at the same coordinate on each axis the operand really has and at 0 on an operand
  axis of extent one.
-/
import Idealize.ShloMosaic.Lib.Pipeline.Value
import Idealize.ShloMosaic.Lib.ValueIdx

namespace Cert.LibInDimRow

open Idealize.ShloMosaic Idealize.ShloMosaic.ValueIdx

variable {α : Type}

/-- [b] placed on axis 1 of [1, b]: entry (u, j) is the operand at j. -/
theorem inDim_b_1b_apply {b : ℕ} (v : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h v (ix2 u j) = v (ix1 j) := by
  refine broadcastInDim_apply _ h v (ix2 u j) (ix1 j) fun ax => ?_
  match ax with
  | ⟨0, _⟩ =>
    show j.val = if b = 1 then 0 else j.val
    split
    · have := j.isLt; omega
    · rfl

/-- A row [1, b] spread over [a, b], axes kept in place: entry (i, j) is the row at (0, j). -/
theorem inDim_1b_ab_apply {a b : ℕ} (v : (⟨2, ![1, b]⟩ : Shape).Idx → α)
    (h : (⟨2, ![1, b]⟩ : Shape).BroadcastsInDim ⟨2, ![a, b]⟩ ![0, 1]) (i : Fin a) (j : Fin b) :
    broadcastInDim ⟨2, ![a, b]⟩ ![0, 1] h v (ix2 i j) = v (ix2 (0 : Fin 1) j) := by
  refine broadcastInDim_apply _ h v (ix2 i j) (ix2 (0 : Fin 1) j) fun ax => ?_
  match ax with
  | ⟨0, _⟩ =>
    show (0 : ℕ) = if (1 : ℕ) = 1 then 0 else _
    rw [if_pos rfl]
  | ⟨1, _⟩ =>
    show j.val = if b = 1 then 0 else j.val
    split
    · have := j.isLt; omega
    · rfl

end Cert.LibInDimRow
-- ==== Proof.RefStages.lean ====
/-
  The reference, stage by stage.

  The reference is a two-layer mean-aggregation graph network after a dense pre-transform:

    h0  = max (x W + b) 0                                   rows of the flattened input against the weights
    h1  = max ((agg h0) Wl + bl + h0 Wr) 0                   first layer
    out = (agg h1) Wl' + bl' + h1 Wr'                        second layer

  where `agg h` gathers the row of every edge's source node, adds the rows up per destination node, and divides by
  the node's in-degree (at least one). The aggregation's index arithmetic never meets the float algebra, so it is
  carried as ONE function of the source row, the destination row and the node array, never opened. Each dense
  stage read at (r, f) is an inner product over the contracted axis plus the bias entry f.
-/
import proofs.«134490_j29583734734919_1_alg».proof.Proof.Gen.ReferenceIdeal.Run
import proofs.«134490_j29583734734919_1_alg».proof.Proof.LibInnerProducts
import proofs.«134490_j29583734734919_1_alg».proof.Proof.LibInDimRow
import Idealize.ShloMosaic.Lib.ValueIdx
import Idealize.ShloMosaic.Lib.Pipeline.Value

noncomputable section

namespace Cert.ReferenceIdeal.Stages

open Cert.ReferenceIdeal Cert.ReferenceIdeal.Gen
open Idealize.ShloMosaic Idealize.ShloMosaic.TcCoe Idealize.SL.Sem Idealize.ShloMosaic.StableHlo
open Idealize.ShloMosaic.ValueIdx Idealize.ShloMosaic.InnerProducts
open scoped BigOperators

variable {F : FTy → Type} [FloatOps F]

/-- Row 0 of the edge list: every edge's source node. -/
def srcRow (e : (⟨S2x320000, .i32⟩ : BufTy).Contents (Elt F)) : (⟨S320000, .i32⟩ : BufTy).Contents (Elt F) :=
  shapeCast S320000 (extractStridedSlice S1x320000 ![0, 0] e slices_S2x320000_S1x320000_0_0) shapeCasts_S1x320000_S320000

/-- Row 1 of the edge list: every edge's destination node. -/
def dstRow (e : (⟨S2x320000, .i32⟩ : BufTy).Contents (Elt F)) : (⟨S320000, .i32⟩ : BufTy).Contents (Elt F) :=
  shapeCast S320000 (extractStridedSlice S1x320000 ![1, 0] e slices_S2x320000_S1x320000_1_0) shapeCasts_S1x320000_S320000

/-- The in-degree of every node, at least one, spread along a row of 256. -/
def degree (dst : (⟨S320000, .i32⟩ : BufTy).Contents (Elt F)) : (⟨S20000x256, .f32⟩ : BufTy).Contents (Elt F) :=
  broadcastInDim S20000x256 ![0, 1] bcast_S20000x1_S20000x256_0_1 (broadcastInDim S20000x1 ![0] bcast_S20000_S20000x1_0
    (maximumf (Host.scatterAdd scatter_S20000_S320000x1_S320000_n_0_0_1
        (broadcastInDim S20000 ![] bcast_S_S20000 (constant S_ .f32 0x00000000#32))
        (broadcastInDim S320000x1 ![0] bcast_S320000_S320000x1_0 dst)
        (broadcastInDim S320000 ![] bcast_S_S320000 (constant S_ .f32 0x3F800000#32)))
      (broadcastInDim S20000 ![] bcast_S_S20000 (constant S_ .f32 0x3F800000#32))))

/-- Mean aggregation: gather each edge's source row (a negative index counted from the end), add the rows up per
    destination node, divide by the in-degree. -/
def agg (src dst : (⟨S320000, .i32⟩ : BufTy).Contents (Elt F)) (h : (⟨S20000x256, .f32⟩ : BufTy).Contents (Elt F)) :
    (⟨S20000x256, .f32⟩ : BufTy).Contents (Elt F) :=
  Host.divf (Host.scatterAdd scatter_S20000x256_S320000x1_S320000x256_1_0_0_1
      (broadcastInDim S20000x256 ![] bcast_S_S20000x256 (constant S_ .f32 0x00000000#32))
      (broadcastInDim S320000x1 ![0] bcast_S320000_S320000x1_0 dst)
      (Host.gather gather_S20000x256_S320000x1_S320000x256_1_0_n_n_0_1_1256 h
        (broadcastInDim S320000x1 ![0] bcast_S320000_S320000x1_0
          (select (cmpi .slt src (broadcastInDim S320000 ![] bcast_S_S320000 (constantI S_ 32 0#32)))
            (addi src (broadcastInDim S320000 ![] bcast_S_S320000 (constantI S_ 32 20000#32))) src))))
    (degree dst)

/-- The zero array a clamp compares with. -/
def zeros : (⟨S20000x256, .f32⟩ : BufTy).Contents (Elt F) :=
  broadcastInDim S20000x256 ![] bcast_S_S20000x256 (constant S_ .f32 0x00000000#32)

/-- The pre-transform on the flattened input. -/
def pre (X : (⟨S20000x8192, .f32⟩ : BufTy).Contents (Elt F)) (W : (⟨S8192x256, .f32⟩ : BufTy).Contents (Elt F))
    (b : (⟨S256, .f32⟩ : BufTy).Contents (Elt F)) : (⟨S20000x256, .f32⟩ : BufTy).Contents (Elt F) :=
  maximumf (addf (Host.dotGeneral dot_S20000x8192_S8192x256_S20000x256_1_0_0_1_n_n none X W)
    (broadcastInDim S20000x256 ![0, 1] bcast_S1x256_S20000x256_0_1 (broadcastInDim S1x256 ![1] bcast_S256_S1x256_1 b))) zeros

/-- The first layer's dense part, clamped. -/
def hidden (A H : (⟨S20000x256, .f32⟩ : BufTy).Contents (Elt F)) (Wl : (⟨S256x256, .f32⟩ : BufTy).Contents (Elt F))
    (b : (⟨S256, .f32⟩ : BufTy).Contents (Elt F)) (Wr : (⟨S256x256, .f32⟩ : BufTy).Contents (Elt F)) :
    (⟨S20000x256, .f32⟩ : BufTy).Contents (Elt F) :=
  maximumf (addf (addf (Host.dotGeneral dot_S20000x256_S256x256_S20000x256_1_0_0_1_n_n none A Wl)
      (broadcastInDim S20000x256 ![0, 1] bcast_S1x256_S20000x256_0_1 (broadcastInDim S1x256 ![1] bcast_S256_S1x256_1 b)))
    (Host.dotGeneral dot_S20000x256_S256x256_S20000x256_1_0_0_1_n_n none H Wr)) zeros

/-- The second layer's dense part. -/
def logits (A H : (⟨S20000x256, .f32⟩ : BufTy).Contents (Elt F)) (Wl : (⟨S256x4, .f32⟩ : BufTy).Contents (Elt F))
    (b : (⟨S4, .f32⟩ : BufTy).Contents (Elt F)) (Wr : (⟨S256x4, .f32⟩ : BufTy).Contents (Elt F)) :
    (⟨S20000x4, .f32⟩ : BufTy).Contents (Elt F) :=
  addf (addf (Host.dotGeneral dot_S20000x256_S256x4_S20000x4_1_0_0_1_n_n none A Wl)
      (broadcastInDim S20000x4 ![0, 1] bcast_S1x4_S20000x4_0_1 (broadcastInDim S1x4 ![1] bcast_S4_S1x4_1 b)))
    (Host.dotGeneral dot_S20000x256_S256x4_S20000x4_1_0_0_1_n_n none H Wr)

/-- The whole network from the argument arrays. -/
def network (x : (⟨S20000x128x64, .f32⟩ : BufTy).Contents (Elt F)) (e : (⟨S2x320000, .i32⟩ : BufTy).Contents (Elt F))
    (Wp : (⟨S8192x256, .f32⟩ : BufTy).Contents (Elt F)) (bp : (⟨S256, .f32⟩ : BufTy).Contents (Elt F))
    (W1l : (⟨S256x256, .f32⟩ : BufTy).Contents (Elt F)) (b1 : (⟨S256, .f32⟩ : BufTy).Contents (Elt F))
    (W1r : (⟨S256x256, .f32⟩ : BufTy).Contents (Elt F)) (W2l : (⟨S256x4, .f32⟩ : BufTy).Contents (Elt F))
    (b2 : (⟨S4, .f32⟩ : BufTy).Contents (Elt F)) (W2r : (⟨S256x4, .f32⟩ : BufTy).Contents (Elt F)) :
    (⟨S20000x4, .f32⟩ : BufTy).Contents (Elt F) :=
  logits
    (agg (srcRow e) (dstRow e) (hidden (agg (srcRow e) (dstRow e)
        (pre (shapeCast S20000x8192 x shapeCasts_S20000x128x64_S20000x8192) Wp bp))
      (pre (shapeCast S20000x8192 x shapeCasts_S20000x128x64_S20000x8192) Wp bp) W1l b1 W1r))
    (hidden (agg (srcRow e) (dstRow e) (pre (shapeCast S20000x8192 x shapeCasts_S20000x128x64_S20000x8192) Wp bp))
      (pre (shapeCast S20000x8192 x shapeCasts_S20000x128x64_S20000x8192) Wp bp) W1l b1 W1r)
    W2l b2 W2r

/-- The reference run's result term is the network of the argument arrays. -/
theorem result_eq (m : (ℓ : Loc nD τ sig) → Buf (Elt F) ℓ) (c : Dev nD) :
    Cert.ReferenceIdeal.Value.res_main_v60 m c
      = network (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9)) := by
  unfold Cert.ReferenceIdeal.Value.res_main_v60 network logits hidden pre agg degree zeros srcRow dstRow
  rfl

/-! ## The dense stages read at an index, on the extended reals -/

/-- The zero array reads the zero word everywhere. -/
theorem zeros_apply (i : S20000x256.Idx) : zeros (F := Ideal) i = Ideal.ofBits .f32 0x00000000#32 :=
  broadcastInDim_apply _ bcast_S_S20000x256 (constant (F := Ideal) S_ .f32 0x00000000#32) i (fun a => a.elim0)
    (fun a => a.elim0)

/-- The pre-transform at (r, f). -/
theorem pre_apply (X : FVec Ideal S20000x8192 .f32) (W : FVec Ideal S8192x256 .f32) (b : FVec Ideal S256 .f32)
    (r : Fin 20000) (f : Fin 256) :
    pre (F := Ideal) X W b (ix2 r f)
      = max ((∑ d : Fin 8192, X (ix2 r d) * W (ix2 d f)) + b (ix1 f)) (Ideal.ofBits .f32 0x00000000#32) := by
  unfold pre
  show max (Host.dotGeneral dot_S20000x8192_S8192x256_S20000x256_1_0_0_1_n_n none X W (ix2 r f)
      + broadcastInDim S20000x256 ![0, 1] bcast_S1x256_S20000x256_0_1
          (broadcastInDim S1x256 ![1] bcast_S256_S1x256_1 b) (ix2 r f)) (zeros (F := Ideal) (ix2 r f)) = _
  have e1 := dotGeneral_apply dot_S20000x8192_S8192x256_S20000x256_1_0_0_1_n_n rfl none X W r f
  have e2 := Cert.LibInDimRow.inDim_1b_ab_apply (broadcastInDim S1x256 ![1] bcast_S256_S1x256_1 b)
    bcast_S1x256_S20000x256_0_1 r f
  have e3 := Cert.LibInDimRow.inDim_b_1b_apply b bcast_S256_S1x256_1 (0 : Fin 1) f
  rw [e1, e2, e3, zeros_apply]

/-- The first layer's dense part at (r, f). -/
theorem hidden_apply (A H : FVec Ideal S20000x256 .f32) (Wl : FVec Ideal S256x256 .f32) (b : FVec Ideal S256 .f32)
    (Wr : FVec Ideal S256x256 .f32) (r : Fin 20000) (f : Fin 256) :
    hidden (F := Ideal) A H Wl b Wr (ix2 r f)
      = max (((∑ d : Fin 256, A (ix2 r d) * Wl (ix2 d f)) + b (ix1 f)) + (∑ d : Fin 256, H (ix2 r d) * Wr (ix2 d f)))
          (Ideal.ofBits .f32 0x00000000#32) := by
  unfold hidden
  show max ((Host.dotGeneral dot_S20000x256_S256x256_S20000x256_1_0_0_1_n_n none A Wl (ix2 r f)
      + broadcastInDim S20000x256 ![0, 1] bcast_S1x256_S20000x256_0_1
          (broadcastInDim S1x256 ![1] bcast_S256_S1x256_1 b) (ix2 r f))
      + Host.dotGeneral dot_S20000x256_S256x256_S20000x256_1_0_0_1_n_n none H Wr (ix2 r f))
      (zeros (F := Ideal) (ix2 r f)) = _
  have e1 := dotGeneral_apply dot_S20000x256_S256x256_S20000x256_1_0_0_1_n_n rfl none A Wl r f
  have e2 := dotGeneral_apply dot_S20000x256_S256x256_S20000x256_1_0_0_1_n_n rfl none H Wr r f
  have e3 := Cert.LibInDimRow.inDim_1b_ab_apply (broadcastInDim S1x256 ![1] bcast_S256_S1x256_1 b)
    bcast_S1x256_S20000x256_0_1 r f
  have e4 := Cert.LibInDimRow.inDim_b_1b_apply b bcast_S256_S1x256_1 (0 : Fin 1) f
  rw [e1, e2, e3, e4, zeros_apply]

/-- The second layer's dense part at (r, f). -/
theorem logits_apply (A H : FVec Ideal S20000x256 .f32) (Wl : FVec Ideal S256x4 .f32) (b : FVec Ideal S4 .f32)
    (Wr : FVec Ideal S256x4 .f32) (r : Fin 20000) (f : Fin 4) :
    logits (F := Ideal) A H Wl b Wr (ix2 r f)
      = ((∑ d : Fin 256, A (ix2 r d) * Wl (ix2 d f)) + b (ix1 f)) + (∑ d : Fin 256, H (ix2 r d) * Wr (ix2 d f)) := by
  unfold logits
  show (Host.dotGeneral dot_S20000x256_S256x4_S20000x4_1_0_0_1_n_n none A Wl (ix2 r f)
      + broadcastInDim S20000x4 ![0, 1] bcast_S1x4_S20000x4_0_1
          (broadcastInDim S1x4 ![1] bcast_S4_S1x4_1 b) (ix2 r f))
      + Host.dotGeneral dot_S20000x256_S256x4_S20000x4_1_0_0_1_n_n none H Wr (ix2 r f) = _
  have e1 := dotGeneral_apply dot_S20000x256_S256x4_S20000x4_1_0_0_1_n_n rfl none A Wl r f
  have e2 := dotGeneral_apply dot_S20000x256_S256x4_S20000x4_1_0_0_1_n_n rfl none H Wr r f
  have e3 := Cert.LibInDimRow.inDim_1b_ab_apply (broadcastInDim S1x4 ![1] bcast_S4_S1x4_1 b)
    bcast_S1x4_S20000x4_0_1 r f
  have e4 := Cert.LibInDimRow.inDim_b_1b_apply b bcast_S4_S1x4_1 (0 : Fin 1) f
  rw [e1, e2, e3, e4]

end Cert.ReferenceIdeal.Stages

end
-- ==== Proof.Bridge.lean ====
/-
  The two programs compute one function.

  Stage by stage. The kernel's weights arrive narrowed to a shorter float format, which on the extended reals is the
  identity, and its bias as a [1, n] row cast from the vector, which reads entry f at (0, f); the reference
  broadcasts the bias vector along the rows, which reads entry f at (r, f). So in every dense stage both sides hold, at
  (r, f), the same two inner products and the same bias entry, and differ only in the order the three are added:

    kernel      (sum_d a(r,d) wl(d,f) + sum_d h(r,d) wr(d,f)) + b(f)
    reference   (sum_d a(r,d) wl(d,f) + b(f)) + sum_d h(r,d) wr(d,f)

  Addition on the extended reals is commutative and associative without any finiteness assumption (the sum of the two
  infinities is fixed to be the lower one, on both sides alike), so the two are equal for every input: the claim
  never uses the precondition. The pre-transform has one inner product and no reordering at all. The neighbour
  aggregation between the stages is the same operations on both sides, and the kernel's one degree computation is the
  reference's two, which are the same term.
-/
import proofs.«134490_j29583734734919_1_alg».proof.Proof.Boundaries
import proofs.«134490_j29583734734919_1_alg».proof.Proof.RefStages
import Idealize.ShloMosaic.Lib.ValueLayout

set_option maxRecDepth 16384

noncomputable section

namespace Cert.Bridge

open Idealize.ShloMosaic Idealize.ShloMosaic.TcCoe Idealize.SL.Sem Idealize.ShloMosaic.ValueIdx
open scoped BigOperators

/-- The pre-transform: one inner product plus the bias entry, clamped, on both sides. -/
theorem pre_eq (X : FVec Ideal Cert.KernelIdeal.S20000x8192 .f32) (W : FVec Ideal Cert.KernelIdeal.S8192x256 .f32) (b : FVec Ideal Cert.KernelIdeal.S256 .f32)
    (hb : FTy.bits .bf16 < FTy.bits .f32) (hs : Cert.KernelIdeal.S256.ShapeCasts Cert.KernelIdeal.S1x256) :
    Cert.KernelIdeal.Pre.stage X (truncf .bf16 W hb) (shapeCast Cert.KernelIdeal.S1x256 b hs) = Cert.ReferenceIdeal.Stages.pre (F := Ideal) X W b := by
  funext i
  obtain ⟨r, f, rfl⟩ : ∃ (r : Fin 20000) (f : Fin 256), i = ix2 r f := ⟨i 0, i 1, eq_ix2 i⟩
  rw [Cert.KernelIdeal.Pre.stage_apply, Cert.ReferenceIdeal.Stages.pre_apply]
  unfold Cert.KernelIdeal.Pre.entry
  rw [shapeCast_a_1a_apply b hs (0 : Fin 1) f]
  rfl

/-- The first layer's dense part: the same three summands, the bias added last or in the middle. -/
theorem hidden_eq (A H : FVec Ideal Cert.KernelIdeal.S20000x256 .f32) (Wl Wr : FVec Ideal Cert.KernelIdeal.S256x256 .f32) (b : FVec Ideal Cert.KernelIdeal.S256 .f32)
    (hb hb' : FTy.bits .bf16 < FTy.bits .f32) (hs : Cert.KernelIdeal.S256.ShapeCasts Cert.KernelIdeal.S1x256) :
    Cert.KernelIdeal.Hidden.stage A H (truncf .bf16 Wl hb) (truncf .bf16 Wr hb') (shapeCast Cert.KernelIdeal.S1x256 b hs)
      = Cert.ReferenceIdeal.Stages.hidden (F := Ideal) A H Wl b Wr := by
  funext i
  obtain ⟨r, f, rfl⟩ : ∃ (r : Fin 20000) (f : Fin 256), i = ix2 r f := ⟨i 0, i 1, eq_ix2 i⟩
  rw [Cert.KernelIdeal.Hidden.stage_apply, Cert.ReferenceIdeal.Stages.hidden_apply]
  unfold Cert.KernelIdeal.Hidden.entry
  rw [shapeCast_a_1a_apply b hs (0 : Fin 1) f]
  exact congrArg (fun v => max v (Ideal.ofBits .f32 0x00000000#32))
    (add_right_comm (∑ d : Fin 256, A (ix2 r d) * Wl (ix2 d f)) (∑ d : Fin 256, H (ix2 r d) * Wr (ix2 d f)) (b (ix1 f)))

/-- The second layer's dense part: as the first layer's, not clamped. -/
theorem logits_eq (A H : FVec Ideal Cert.KernelIdeal.S20000x256 .f32) (Wl Wr : FVec Ideal Cert.KernelIdeal.S256x4 .f32) (b : FVec Ideal Cert.KernelIdeal.S4 .f32)
    (hb hb' : FTy.bits .bf16 < FTy.bits .f32) (hs : Cert.KernelIdeal.S4.ShapeCasts Cert.KernelIdeal.S1x4) :
    Cert.KernelIdeal.Logits.stage A H (truncf .bf16 Wl hb) (truncf .bf16 Wr hb') (shapeCast Cert.KernelIdeal.S1x4 b hs)
      = Cert.ReferenceIdeal.Stages.logits (F := Ideal) A H Wl b Wr := by
  funext i
  obtain ⟨r, f, rfl⟩ : ∃ (r : Fin 20000) (f : Fin 4), i = ix2 r f := ⟨i 0, i 1, eq_ix2 i⟩
  rw [Cert.KernelIdeal.Logits.stage_apply, Cert.ReferenceIdeal.Stages.logits_apply]
  unfold Cert.KernelIdeal.Logits.entry
  rw [shapeCast_a_1a_apply b hs (0 : Fin 1) f]
  exact add_right_comm (∑ d : Fin 256, A (ix2 r d) * Wl (ix2 d f)) (∑ d : Fin 256, H (ix2 r d) * Wr (ix2 d f)) (b (ix1 f))

/-- The edge list's rows are read the same way on both sides. -/
theorem src_eq (e : (⟨Cert.KernelIdeal.S2x320000, .i32⟩ : BufTy).Contents (Elt Ideal)) :
    Cert.KernelIdeal.Boundary.srcRow e = Cert.ReferenceIdeal.Stages.srcRow (F := Ideal) e := rfl
theorem dst_eq (e : (⟨Cert.KernelIdeal.S2x320000, .i32⟩ : BufTy).Contents (Elt Ideal)) :
    Cert.KernelIdeal.Boundary.dstRow e = Cert.ReferenceIdeal.Stages.dstRow (F := Ideal) e := rfl

/-- The aggregation is the same operations on both sides; the kernel's degree column, computed once, is the one the
    reference computes in each layer. -/
theorem agg_eq (src dst : (⟨Cert.KernelIdeal.S320000, .i32⟩ : BufTy).Contents (Elt Ideal))
    (h : (⟨Cert.KernelIdeal.S20000x256, .f32⟩ : BufTy).Contents (Elt Ideal)) :
    Cert.KernelIdeal.Boundary.agg src dst (Cert.KernelIdeal.Boundary.degreeCol dst) h = Cert.ReferenceIdeal.Stages.agg (F := Ideal) src dst h := by
  unfold Cert.KernelIdeal.Boundary.agg Cert.KernelIdeal.Boundary.degreeCol Cert.ReferenceIdeal.Stages.agg Cert.ReferenceIdeal.Stages.degree
  rfl

/-- The kernel's result, as a function of its argument arrays, is the reference's network of them. -/
theorem result_eq (m : (ℓ : Loc Cert.KernelIdeal.nD Cert.KernelIdeal.τ Cert.KernelIdeal.sig) → Buf (Elt Ideal) ℓ) (c : Dev Cert.KernelIdeal.nD) :
    Cert.KernelIdeal.Boundary.result m c
      = Cert.ReferenceIdeal.Stages.network (F := Ideal)
          (m ((c.tc : Thread Cert.KernelIdeal.nD Cert.KernelIdeal.τ).loc Cert.KernelIdeal.main_arg0)) (m ((c.tc : Thread Cert.KernelIdeal.nD Cert.KernelIdeal.τ).loc Cert.KernelIdeal.main_arg1))
          (m ((c.tc : Thread Cert.KernelIdeal.nD Cert.KernelIdeal.τ).loc Cert.KernelIdeal.main_arg2)) (m ((c.tc : Thread Cert.KernelIdeal.nD Cert.KernelIdeal.τ).loc Cert.KernelIdeal.main_arg3))
          (m ((c.tc : Thread Cert.KernelIdeal.nD Cert.KernelIdeal.τ).loc Cert.KernelIdeal.main_arg4)) (m ((c.tc : Thread Cert.KernelIdeal.nD Cert.KernelIdeal.τ).loc Cert.KernelIdeal.main_arg5))
          (m ((c.tc : Thread Cert.KernelIdeal.nD Cert.KernelIdeal.τ).loc Cert.KernelIdeal.main_arg6)) (m ((c.tc : Thread Cert.KernelIdeal.nD Cert.KernelIdeal.τ).loc Cert.KernelIdeal.main_arg7))
          (m ((c.tc : Thread Cert.KernelIdeal.nD Cert.KernelIdeal.τ).loc Cert.KernelIdeal.main_arg8)) (m ((c.tc : Thread Cert.KernelIdeal.nD Cert.KernelIdeal.τ).loc Cert.KernelIdeal.main_arg9)) := by
  unfold Cert.KernelIdeal.Boundary.result Cert.KernelIdeal.Boundary.h1 Cert.KernelIdeal.Boundary.h0 Cert.ReferenceIdeal.Stages.network
  simp only [pre_eq, hidden_eq, logits_eq, agg_eq, src_eq, dst_eq]

end Cert.Bridge

end
-- ==== Proof.lean ====
/-
  A two-layer mean-aggregation graph network after a dense pre-transform, as three matrix-unit stages with the
  neighbour gathers and per-node sums between them, against the same network written with whole-array products.

  With x flattened to [20000, 8192], src and dst the two rows of the edge list, and
  agg h = (sum over the edges into a node of h at the edge's source) / max(in-degree, 1):

    h0  = max (x W + b) 0
    h1  = max (agg(h0) Wl + h0 Wr + bl) 0        the reference adds bl before h0 Wr
    out = agg(h1) Wl' + h1 Wr' + bl'              the reference adds bl' before h1 Wr'

  Frames: the two kernel programs run without faults and leave their arguments alone by their generated frame
  certificates; the reference is host operations only, and its frame is its generated run with the result dropped.
  The idealization rewrote nothing, so there is nothing to preserve. The value claim: the kernel's result array is
  read off its run segment by segment (the row blocks of each stage tile its output, so each stage leaves one
  function of whole arrays), the reference's off its run as one nested term, and the two are the same function of the
  arguments because each dense stage holds the same inner products and bias entry on both sides, added in a
  different order, and addition on the extended reals is commutative and associative.
-/
import proofs.«134490_j29583734734919_1_alg».proof.Defs
import proofs.«134490_j29583734734919_1_alg».proof.Proof.Gen.Kernel
import proofs.«134490_j29583734734919_1_alg».proof.Proof.Gen.Kernel.Skeleton
import proofs.«134490_j29583734734919_1_alg».proof.Proof.Gen.Kernel.Launch
import proofs.«134490_j29583734734919_1_alg».proof.Proof.Gen.Kernel.Points
import proofs.«134490_j29583734734919_1_alg».proof.Proof.Gen.Kernel.Frame
import proofs.«134490_j29583734734919_1_alg».proof.Proof.Gen.KernelIdeal
import proofs.«134490_j29583734734919_1_alg».proof.Proof.Gen.KernelIdeal.Skeleton
import proofs.«134490_j29583734734919_1_alg».proof.Proof.Gen.KernelIdeal.Launch
import proofs.«134490_j29583734734919_1_alg».proof.Proof.Gen.KernelIdeal.Points
import proofs.«134490_j29583734734919_1_alg».proof.Proof.Gen.KernelIdeal.Frame
import proofs.«134490_j29583734734919_1_alg».proof.Proof.Gen.ReferenceIdeal
import proofs.«134490_j29583734734919_1_alg».proof.Proof.Gen.Pre_finite_inputs
import proofs.«134490_j29583734734919_1_alg».proof.Proof.Gen.ReferenceIdeal.Run
import proofs.«134490_j29583734734919_1_alg».proof.Proof.KernelRun
import proofs.«134490_j29583734734919_1_alg».proof.Proof.Bridge
import Idealize.ShloMosaic.Adequacy
import Idealize.ShloMosaic.Init

noncomputable section

namespace Cert.Proof

open Idealize.ShloMosaic Idealize.SL.Sem

/-- The kernel as printed runs, faults nowhere and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is host operations only: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the same result array: the kernel's is the
    function its segments compose to, the reference's its run's term, and the two are one function of the arguments. -/
theorem algebraic : Cert.algebraic_KernelIdeal_ReferenceIdeal := by
  intro m ρ m' ρ' _ hagree
  refine ⟨fun c => Cert.KernelIdeal.Boundary.result m c, ?_, ?_⟩
  · exact (θ_run Cert.KernelIdeal.defs _ _).mono
      (fun r h c => ⟨(h c).1.trans (Cert.KernelIdeal.Boundary.w6_v46 m ρ c), (h c).2⟩)
      (Cert.KernelIdeal.Run.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7, a8, a9⟩ := hagree c
    show Cert.ReferenceIdeal.Value.res_main_v60 m' c = Cert.KernelIdeal.Boundary.result m c
    rw [Cert.ReferenceIdeal.Stages.result_eq, Cert.Bridge.result_eq, a0, a1, a2, a3, a4, a5, a6, a7, a8, a9]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
